-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S8x128 : Shape := ⟨2, ![8, 128]⟩
abbrev S512x1024 : Shape := ⟨2, ![512, 1024]⟩
abbrev S512x1 : Shape := ⟨2, ![512, 1]⟩
abbrev S512x512 : Shape := ⟨2, ![512, 512]⟩
abbrev S1x512 : Shape := ⟨2, ![1, 512]⟩
abbrev S512 : Shape := ⟨1, ![512]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x1024, .bf16⟩
  | .hbm, ⟨8, _⟩ => ⟨S8192x1, .i32⟩
  | .hbm, ⟨9, _⟩ => ⟨S8x128, .f32⟩
  | .hbm, ⟨10, _⟩ => ⟨S1x1, .f32⟩
  | .hbm, ⟨11, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .i32⟩
  | .local _ .vmem, ⟨9, _⟩ => ⟨S512x1, .i32⟩
  | .local _ .vmem, ⟨10, _⟩ => ⟨S512x1, .i32⟩
  | .local _ .vmem, ⟨11, _⟩ => ⟨S512x1, .i32⟩
  | .local _ .vmem, ⟨12, _⟩ => ⟨S8x128, .f32⟩
  | .local _ .vmem, ⟨13, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bitsLt_bf16_f32 : FTy.bits .bf16 < FTy.bits .f32
  shapeCasts_S8192_S8192x1 : S8192.ShapeCasts S8192x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S8x128_S1x1_0_0 : S8x128.Slices ![0, 0] S1x1
  shapeCasts_S1x1_S_ : S1x1.ShapeCasts S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .i32 = 32 ∨ (Rect.block (s := S8192x1) S512x1.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .f32 = 32 ∨ (Rect.block (s := S8x128) S8x128.size (cc0_transform_6 i) (hinb0_6 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S8x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S1024x8192, .f32⟩
  | .hbm, ⟨8, _⟩ => ⟨S8192x8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192, .i32⟩
  | .hbm, ⟨20, _⟩ => ⟨S8192x1, .i32⟩
  | .hbm, ⟨21, _⟩ => ⟨S8192, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i1⟩
  | .hbm, ⟨27, _⟩ => ⟨S_, .f32⟩
  | .hbm, ⟨28, _⟩ => ⟨S8192x8192, .f32⟩
  | .hbm, ⟨29, _⟩ => ⟨S8192x8192, .i1⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_call1_cst : Ref sig .tc := ⟨.hbm, 33, rfl⟩
abbrev main_call1_v0 : Ref sig .tc := ⟨.hbm, 34, rfl⟩
abbrev main_v25 : Ref sig .tc := ⟨.hbm, 35, rfl⟩
abbrev main_call2_cst : Ref sig .tc := ⟨.hbm, 36, rfl⟩
abbrev main_call2_v0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_call4_v0 : Ref sig .tc := ⟨.hbm, 41, rfl⟩
abbrev main_call4_v1 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  transposes_S8192x1024_S1024x8192_1_0 : S8192x1024.Transposes [1, 0] S1024x8192
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S8192_S1x8192_1 : S8192.BroadcastsInDim S1x8192 (![1] : Fin 1 → Fin S1x8192.rank)
  bcast_S_S8192x8192 : S_.BroadcastsInDim S8192x8192 (![] : Fin 0 → Fin S8192x8192.rank)
  reducesTo_S8192x8192_S_d0_1 : S8192x8192.ReducesTo [0, 1] S_
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.KB.Setup.lean ====
/-
  What the frame of this program's one pipelined kernel is stated over, shared by every module of the frame:
  the buffer contents when the kernel region is entered (the host lines before it applied to the launch memory),
  @main reduced to the region followed by the host lines after it, each window's block at a grid point read off
  its array, the two branch conditions of the body in closed form over the 16 x 16 grid (point t is block-row
  t / 16, block-column t % 16: the accumulator is reset at t = 0, a block is accumulated when row <= column),
  the staging memrefs the body is called with, and the region invariant with the accumulator scratch named.
-/
import proofs.«179921_j88399016886706_1_alg».proof.Proof.Gen.Kernel.Launch
import proofs.«179921_j88399016886706_1_alg».proof.Proof.Gen.Kernel.Skeleton
import proofs.«179921_j88399016886706_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the norm computation and the
    two host lines (the format change of the array, the reshape of the words to a column). -/
abbrev V0 (c : Dev nD) : Valuation τ sig (Elt F) :=
  StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches -/

/-- The reset branch is taken when both grid coordinates are zero. -/
abbrev condReset (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Over the grid: at the first point only. -/
theorem hcondReset : ∀ t : Fin cfg0.N, condReset (grid0.coords t) ↔ t.val = 0 :=
  (by decide +kernel : ∀ t : Fin grid0.N, condReset (grid0.coords t) ↔ t.val = 0)

/-- The accumulate branch is taken when the block-row is at most the block-column. -/
abbrev condAcc (i : grid0.Coords) : Prop :=
  Scalar.cmpi .ne (Scalar.extui (Scalar.cmpi .sle (BitVec.ofNat 32 (i 0).val) (BitVec.ofNat 32 (i 1).val))) 0#32 = 1#1
/-- Over the grid: point t is block (t / 16, t % 16). -/
theorem hcondAcc : ∀ t : Fin cfg0.N, condAcc (grid0.coords t) ↔ t.val / 16 ≤ t.val % 16 :=
  (by decide +kernel : ∀ t : Fin grid0.N, condAcc (grid0.coords t) ↔ t.val / 16 ≤ t.val % 16)

/-- The grid coordinates of point t. -/
theorem coords_eq : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- No window is idle at any point: the body stores the output at every point. -/
theorem liveAt : ∀ (w : Fin cfg0.W) (t : Fin cfg0.N), cfg0.idle w (grid0.coords t) = false := fun _ _ => rfl

/-! ## The memrefs the body is called with -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .f32 := win0_6.stage (cfg0.slots t 6)
abbrev hs6 (t : Fin cfg0.N) : (ms6 t).IsWhole := hstage0_6 ((cfg0.slots t 6).cast nbuf0_6)
/-- The accumulator: a whole scoped buffer of the kernel's own, passed beside the windows. -/
abbrev scM : Memref sig .tc .vmem S8x128 .f32 := Memref.whole cc0_scratch0
/-- The accumulator and the output's staging buffer as views, through which their contents are stated. -/
abbrev VS : View sig .tc .vmem S8x128 .f32 := scM.view
abbrev VO : View sig .tc .vmem S8x128 .f32 := (Memref.whole cc0_stg6_0 : Memref sig .tc .vmem S8x128 .f32).view

/-- The region invariant of a kernel that names nothing between points, with the accumulator as a memref owned at
    some contents: what the launch hands the first point and takes back after the last. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KB.EntryArgs.lean ====
/-
  The kernel region finds the two arguments of @main as the launch memory has them: no host
  line before the region writes an argument.
-/
import proofs.«179921_j88399016886706_1_alg».proof.Proof.KB.Setup
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL.Sem Idealize.ShloMosaic.StableHlo

variable {F : FTy → Type} [FloatOps F]

variable (m : (ℓ : Loc nD τ sig) → Buf (Elt F) ℓ)

/-- The first argument when the region is entered is the launch memory's. -/
theorem V_main_arg0 (c : Dev nD) : V m c main_arg0 = m ((c.tc : Thread nD τ).loc main_arg0) := by
  dsimp only [V, V0]
  simp only [hostOps0, hostOps0_1, List.flatten_cons, List.flatten_nil, List.append_nil,
    List.cons_append, List.nil_append]
  after_results

/-- The second argument when the region is entered is the launch memory's. -/
theorem V_main_arg1 (c : Dev nD) : V m c main_arg1 = m ((c.tc : Thread nD τ).loc main_arg1) := by
  dsimp only [V, V0]
  simp only [hostOps0, hostOps0_1, List.flatten_cons, List.flatten_nil, List.append_nil,
    List.cons_append, List.nil_append]
  after_results

end Cert.Kernel.Hand

end
-- ==== Proof.KB.Launch.lean ====
/-
  The launch of the pipelined kernel when several of its input windows read ONE array: the run of @main from the
  body obligation. Each shared array's whole points-to is split into two half shares, one per window that reads it;
  the output array is held whole. After the last grid point the host lines that follow the region (a slice of the
  output's entry (0,0) and its reshape to a scalar) run within the output array and the two buffers they write.
-/
import proofs.«179921_j88399016886706_1_alg».proof.Proof.KB.EntryArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each input window holds of its array: the two windows on one array take its two halves. -/
def qSplit : Fin 7 → PosShare TreeShare := fun
  | ⟨0, _⟩ => fullShare.left | ⟨1, _⟩ => fullShare.right | ⟨2, _⟩ => fullShare.left | ⟨3, _⟩ => fullShare.right
  | ⟨4, _⟩ => fullShare.left | ⟨5, _⟩ => fullShare.right | ⟨6, _⟩ => fullShare
  | ⟨_ + 7, h⟩ => absurd h (Nat.not_lt.2 (Nat.le_add_left _ _))

/-- The four distinct buffers behind the seven windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v1) ↦{fullShare} W main_v1) ∗ (((c.tc : Thread nD τ).loc main_v0) ↦{fullShare} W main_v0)
          ∗ (((c.tc : Thread nD τ).loc main_v2) ↦{fullShare} W main_v2) ∗ (((c.tc : Thread nD τ).loc main_v3) ↦{fullShare} W main_v3)) := by
  unfold Pipeline.arrBufs
  rw [bigSep_eq_bigSepL_of_eq [main_v1, main_v0, main_v2, main_v3] (by decide) (by decide)]
  rfl

/-- The proof data's arrays, window by window, at the split shares. -/
theorem arrays_eq7 (c : Dev nD) (dat : Dat τ (Elt F) Unit ℕ (UR sig nD τ) ℕ cfg0 c) (hq : dat.q = qSplit)
    (Fa : (w : Fin cfg0.W) → Buf (Elt F) ((cfg0.win w).arr.view.loc (c.tc : Thread nD τ))) :
    (dat.arrays Fa : sProp 𝕄)
      = iprop((((c.tc : Thread nD τ).loc main_v1) ↦{fullShare.left} Fa 0) ∗ (((c.tc : Thread nD τ).loc main_v1) ↦{fullShare.right} Fa 1)
          ∗ (((c.tc : Thread nD τ).loc main_v0) ↦{fullShare.left} Fa 2) ∗ (((c.tc : Thread nD τ).loc main_v0) ↦{fullShare.right} Fa 3)
          ∗ (((c.tc : Thread nD τ).loc main_v2) ↦{fullShare.left} Fa 4) ∗ (((c.tc : Thread nD τ).loc main_v2) ↦{fullShare.right} Fa 5)
          ∗ (((c.tc : Thread nD τ).loc main_v3) ↦{fullShare} Fa 6)) := by
  have hs : ∀ w, dat.share w = qSplit w := by
    intro w; unfold Dat.share; rw [hq]; fin_cases w <;> rfl
  unfold Dat.arrays
  rw [show (bigSep Finset.univ fun w : Fin cfg0.W => ((cfg0.win w).arr.view.loc (c.tc : Thread nD τ) ↦[(cfg0.win w).arr.view.set]{dat.share w} Fa w : sProp 𝕄))
        = bigSep Finset.univ fun w : Fin cfg0.W => (((c.tc : Thread nD τ).loc (Pipeline.arrRef spec0 w)) ↦{qSplit w} Fa w : sProp 𝕄) from
      bigSep_congr fun w _ => by rw [(arr_whole0 w).set_eq_univ, hs w]]
  rw [bigSep_W0]
  rfl

/-! ## The host lines after the region -/

/-- The three buffers the lines after the region touch: the output array (read) and the two they write. -/
def tailSet : Finset (DevRef τ sig) := {Proc.devRef .tc main_v3, Proc.devRef .tc main_v4, Proc.devRef .tc main_v5}

/-- Those three held whole, one by one. -/
theorem tailSet_eq (c : Dev nD) (W : Valuation τ sig (Elt F)) :
    (StableHlo.held (c.tc : Thread nD τ) tailSet W : sProp 𝕄)
      = iprop((((c.tc : Thread nD τ).loc main_v3) ↦{fullShare} W (Proc.devRef .tc main_v3))
          ∗ (((c.tc : Thread nD τ).loc main_v4) ↦{fullShare} W (Proc.devRef .tc main_v4))
          ∗ (((c.tc : Thread nD τ).loc main_v5) ↦{fullShare} W (Proc.devRef .tc main_v5))) := by
  unfold StableHlo.held
  rw [bigSep_eq_bigSepL_of_eq [Proc.devRef .tc main_v3, Proc.devRef .tc main_v4, Proc.devRef .tc main_v5] (by decide) (by decide)]
  rfl

theorem hostOps1_tailSet : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl
  · show ({Proc.devRef .tc main_v3, Proc.devRef .tc main_v4} : Finset (DevRef τ sig)) ⊆ tailSet; decide
  · show ({Proc.devRef .tc main_v4, Proc.devRef .tc main_v5} : Finset (DevRef τ sig)) ⊆ tailSet; decide

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Core `c`'s buffer contents when the region is left: the entry contents with the output array at `a`. -/
abbrev Wout (c : Dev nD) (a : Buf (Elt F) ((c.tc : Thread nD τ).loc main_v3)) : Valuation τ sig (Elt F) :=
  Function.update (V0 m c) (Proc.devRef .tc main_v3) a
/-- and after the two host lines that follow the region. -/
abbrev Wfin (c : Dev nD) (a : Buf (Elt F) ((c.tc : Thread nD τ).loc main_v3)) : Valuation τ sig (Elt F) :=
  StableHlo.after hostOps1 (Wout m c a)

set_option backward.isDefEq.respectTransparency.types false in
/-- The lines after the region, run within the three buffers: the output array is read and left as it is. -/
theorem tail_run (c : Dev nD) (a : Buf (Elt F) ((c.tc : Thread nD τ).loc main_v3)) (Q' : PUnit → sProp 𝕄) :
    iprop((iprop((((c.tc : Thread nD τ).loc main_v3) ↦{fullShare} a)
              ∗ (((c.tc : Thread nD τ).loc main_v4) ↦{fullShare} Wfin m c a (Proc.devRef .tc main_v4))
              ∗ (((c.tc : Thread nD τ).loc main_v5) ↦{fullShare} Wfin m c a (Proc.devRef .tc main_v5))) -∗ Q' ⟨⟩)
        ∗ boundary (c.tc : Thread nD τ)
        ∗ (((c.tc : Thread nD τ).loc main_v3) ↦{fullShare} a)
        ∗ (((c.tc : Thread nD τ).loc main_v4) ↦{fullShare} V m c main_v4)
        ∗ (((c.tc : Thread nD τ).loc main_v5) ↦{fullShare} V m c main_v5))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  have hW : (StableHlo.held (c.tc : Thread nD τ) tailSet (Wout m c a) : sProp 𝕄)
      = iprop((((c.tc : Thread nD τ).loc main_v3) ↦{fullShare} a)
          ∗ (((c.tc : Thread nD τ).loc main_v4) ↦{fullShare} V m c main_v4)
          ∗ (((c.tc : Thread nD τ).loc main_v5) ↦{fullShare} V m c main_v5)) := by
    rw [tailSet_eq, show Wout m c a (Proc.devRef .tc main_v3) = a from Function.update_self _ _ _,
      show Wout m c a (Proc.devRef .tc main_v4) = V m c main_v4 from Function.update_of_ne (StableHlo.devRef_ne_of_ne (by decide)) _ _,
      show Wout m c a (Proc.devRef .tc main_v5) = V m c main_v5 from Function.update_of_ne (StableHlo.devRef_ne_of_ne (by decide)) _ _]
  have hW' : (StableHlo.held (c.tc : Thread nD τ) tailSet (Wfin m c a) : sProp 𝕄)
      = iprop((((c.tc : Thread nD τ).loc main_v3) ↦{fullShare} a)
          ∗ (((c.tc : Thread nD τ).loc main_v4) ↦{fullShare} Wfin m c a (Proc.devRef .tc main_v4))
          ∗ (((c.tc : Thread nD τ).loc main_v5) ↦{fullShare} Wfin m c a (Proc.devRef .tc main_v5))) := by
    rw [tailSet_eq]
    congr 2
  rw [show ([StableHlo.seq hostOps1] : List (Prog _ PUnit)) = ([hostOps1] : List (List (HloOp τ sig (Elt F)))).map StableHlo.seq ++ [] from rfl, ← hW]
  iintro ⟨Hk, Hb⟩
  iapply (Pipeline.wp_seqs_then (fun q => (cfgs q).toPCfg (Val := Elt F)) defs₀ Variants.none c tailSet [] [hostOps1] hostOps1_tailSet hostOps1_fresh' (Wout m c a)) $$ Hb
  iintro Hb
  rw [Pipeline.chain_nil, wp_pure, show ([hostOps1] : List (List (HloOp τ sig (Elt F)))).flatten = hostOps1 from by simp only [List.flatten_cons, List.flatten_nil, List.append_nil], hW']
  imodintro
  iapply Hk
  icases Hb with ⟨-, H⟩
  iexact H

set_option backward.isDefEq.respectTransparency.types false in
/-- THE RUN from the body obligation: at the compiled mesh, from any memory with zero counters, every weakly fair
    execution of @main terminates; the scalar result holds what the two host lines after the region compute from the
    output array as the pipeline leaves it after the last grid point, and the two arguments end as launched. -/
theorem run_main_of [∀ e, Nonempty (Elt F e)]
    (dats : (p : Fin 1) → (c : Dev nD) → Dat τ (Elt F) Unit ℕ (UR sig nD τ) ℕ (cfgs p) c)
    (hbody : ∀ c, BodyObligation (dats 0 c) (defs₀ (F := F)) Variants.none () Set.univ)
    (hA : ∀ c w, (dats 0 c).A w = V m c (Pipeline.arrRef spec0 w))
    (hq : ∀ c, (dats 0 c).q = qSplit)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c)
    :
    θ_run defs (onTc (τ := τ) (main (F := F))) ⟨m, fun _ => 0, ρ⟩ (fun r => ∀ c : Dev nD,
      r.2.mem ((c.tc : Thread nD τ).loc main_v5) = Wfin m c ((dats 0 c).arrAt 6 cfg0.N) (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  refine Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main (fun _ => Pipeline.chain [StableHlo.seq hostOps1])
    (fun c => (hbody c).loose) block_pos0 arr_whole0 stage_whole0 howed
    (G := fun _ => iprop(emp)) (u₀ := initOf (Pipeline.cells cfgs cellOf_inj) (Pipeline.launchToks cfgs cellOf_inj))
    (hu₀ := ?hu₀)
    (V := V m) (hmain := hmain m Variants.none) (hsplit := ?hsplit) (hpf := fun _ k => k.elim0)
    (X := fun c => iprop(∃ r, prngReg c r)) (Y := fun c => iprop(∃ r, prngReg c r)) (Z := ?Z)
    (Z' := fun c => iprop((((c.tc : Thread nD τ).loc main_v5) ↦{fullShare} Wfin m c ((dats 0 c).arrAt 6 cfg0.N) (Proc.devRef .tc main_v5))
        ∗ (((c.tc : Thread nD τ).loc main_arg0) ↦{fullShare} V m c main_arg0)
        ∗ (((c.tc : Thread nD τ).loc main_arg1) ↦{fullShare} V m c main_arg1)))
    (hX := ?hX) (hin := ?hin) (hout := ?hout) (htail := ?htail) (QY := fun c s => s.mem ((c.tc : Thread nD τ).loc main_v5) = Wfin m c ((dats 0 c).arrAt 6 cfg0.N) (Proc.devRef .tc main_v5)
        ∧ s.mem ((c.tc : Thread nD τ).loc main_arg0) = V m c main_arg0
        ∧ s.mem ((c.tc : Thread nD τ).loc main_arg1) = V m c main_arg1) (hY := ?hY) (hQ := ?hQ)
  case hu₀ =>
    iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case Z => exact fun c => Pipeline.unscopedRest (Ix := Unit) (Name := ℕ) (U := UR sig nD τ) (Lvl := ℕ) spec0 c (V m c)
  case hX =>
    intro c
    rw [Pipeline.unscopedRestP_none]
    iintro ⟨HU, -, -, -, Hp, -⟩; imodintro
    isplitl [Hp]; · iexists _; iexact Hp
    iexact HU
  case hin =>
    intro c
    refine (show _ ⊢ Pipeline.ΦA spec0 c from ?_).trans (hin c)
    unfold Pipeline.ΦA; iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]; · iexact Hp
    isplitr; · iempintro
    iexact Hr
  case hsplit =>
    intro c
    rw [arrBufs_eq, arrays_eq7 c (dats 0 c) (hq c)]
    have e : ∀ w, (dats 0 c).arrAt w 0 = V m c (Pipeline.arrRef spec0 w) := fun w => hA c w
    rw [e 0, e 1, e 2, e 3, e 4, e 5, e 6]
    have hh := PosShare.mem_left_op_right fullShare
    iintro ⟨H1, H0, H2, H3⟩
    ihave H1' := (pointsTo_share hh).1 $$ H1
    ihave H0' := (pointsTo_share hh).1 $$ H0
    ihave H2' := (pointsTo_share hh).1 $$ H2
    icases H1' with ⟨H1l, H1r⟩
    icases H0' with ⟨H0l, H0r⟩
    icases H2' with ⟨H2l, H2r⟩
    isplitl [H1l]; · iexact H1l
    isplitl [H1r]; · iexact H1r
    isplitl [H0l]; · iexact H0l
    isplitl [H0r]; · iexact H0r
    isplitl [H2l]; · iexact H2l
    isplitl [H2r]; · iexact H2r
    iexact H3
  case htail =>
    intro c Q'
    rw [arrays_eq7 c (dats 0 c) (hq c), unscopedRest0_eq]
    iintro ⟨Hk, Hb, ⟨A0, A1, A2, A3, A4, A5, A6⟩, ⟨Ha0, Ha1, Hc0, Hc1, Hc2, Hc3, H4, H5⟩⟩
    iapply (tail_run m c ((dats 0 c).arrAt 6 cfg0.N) Q')
    isplitl [Hk A0 A1 A2 A3 A4 A5 Ha0 Ha1]
    · iintro ⟨B3, B4, B5⟩
      iapply Hk
      isplitl [A0 A1 A2 A3 A4 A5 B3]
      · isplitl [A0]; · iexact A0
        isplitl [A1]; · iexact A1
        isplitl [A2]; · iexact A2
        isplitl [A3]; · iexact A3
        isplitl [A4]; · iexact A4
        isplitl [A5]; · iexact A5
        iexact B3
      isplitl [B5]; · iexact B5
      isplitl [Ha0]; · iexact Ha0
      iexact Ha1
    isplitl [Hb]; · iexact Hb
    isplitl [A6]; · iexact A6
    isplitl [H4]; · iexact H4
    iexact H5
  case hY =>
    intro c s'
    iintro ⟨-, ⟨H5, Ha0, Ha1⟩, HSI⟩
    icombine HSI H5 gives %h5
    icombine HSI Ha0 gives %h0
    icombine HSI Ha1 gives %h1
    imodintro
    isplitr
    · ipureintro; exact ⟨Buf.eq_of_forall_mem_univ h5, Buf.eq_of_forall_mem_univ h0, Buf.eq_of_forall_mem_univ h1⟩
    iexact HSI
  case hQ =>
    intro s h c
    exact ⟨(h c).2.2.1, (h c).2.2.2.1.trans (V_main_arg0 m c), (h c).2.2.2.2.trans (V_main_arg1 m c)⟩
-- ==== Proof.KB.RunC.lean ====
/-
  The kernel body at a grid point where neither branch is taken (block-row above block-column, not the first
  point): the accumulator is only read, and what it holds is stored whole into the output's staging buffer.
  The triple is stated over any whole memrefs; the pieces the output's buffer ends with are found by the run.
-/
import proofs.«179921_j88399016886706_1_alg».proof.Proof.KB.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- Neither branch taken: from the six input buffers at their contents, the output's buffer at anything and the
    accumulator at `xs`, the body runs to the continuation holding the inputs and the accumulator as they were and
    the output's buffer with its pieces (one whole store) written. -/
noncomputable def kernelRunC (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : ¬condAcc i)
    (x0 x1 : Vec F S512x1024 .bf16) (x2 x3 : Vec F S512x1 .f32) (x4 x5 : Vec F S512x1 .i32) (xs : Vec F S8x128 .f32) :
    { L6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ owns (c : Thread nD τ) arg9 fullShare xs) -∗ K ⟨⟩))
          ⊢ wp frame (wpE (defs₀ (F := F)) Variants.none c none) E (cc0__cl_kernel i arg2 harg2 arg3 harg3 arg4 harg4 arg5 harg5 arg6 harg6 arg7 harg7 arg8 harg8 arg9 harg9) K } := by
  refine ⟨?_, fun E K => ?run⟩
  case run =>
    simp only [cc0__cl_kernel_eq_skeleton]; unfold cc0__cl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS

end Cert.Kernel.Hand

end
-- ==== Proof.KB.RunB.lean ====
/-
  The kernel body at a grid point other than the first where the block is accumulated (block-row at most
  block-column): the block's partial sum is added into the accumulator's first cell, and what the accumulator
  then holds is stored whole into the output's staging buffer. The triple is stated over any whole memrefs;
  the pieces each stored buffer ends with are found by the run. The accumulator's store covers one cell only,
  so its pieces are handed back written over the contents it came with.
-/
import proofs.«179921_j88399016886706_1_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Accumulation without reset: from the six input buffers at their contents, the output's buffer at anything and
    the accumulator at `xs`, the body runs to the continuation holding the inputs as they were, the accumulator
    with its piece (the first cell) written over `xs`, and the output's buffer with its pieces (one whole store)
    written. -/
noncomputable def kernelRunB (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : condAcc i)
    (x0 x1 : Vec F S512x1024 .bf16) (x2 x3 : Vec F S512x1 .f32) (x4 x5 : Vec F S512x1 .i32) (xs : Vec F S8x128 .f32) :
    Σ' (L6 : List (View.Piece (Elt F) S8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (arg9.view.loc (c : Thread nD τ) ↦[arg9.view.set]{fullShare} arg9.view.writes (Elt F) (harg9.unread xs) LS)) -∗ K ⟨⟩))
          ⊢ wp frame (wpE (defs₀ (F := F)) Variants.none c none) E (cc0__cl_kernel i arg2 harg2 arg3 harg3 arg4 harg4 arg5 harg5 arg6 harg6 arg7 harg7 arg8 harg8 arg9 harg9) K } := by
  refine ⟨?_, ?_, fun E K => ?run⟩
  case run =>
    simp only [cc0__cl_kernel_eq_skeleton]; unfold cc0__cl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexact HS

end Cert.Kernel.Hand

end
-- ==== Proof.KB.RunA.lean ====
/-
  The kernel body at the first grid point, where both branches are taken: the accumulator is reset to zeros,
  the block's partial sum is added into its first cell, and what it then holds is stored whole into the
  output's staging buffer. The triple is stated over any whole memrefs; the pieces each stored buffer ends with
  are found by the run.
-/
import proofs.«179921_j88399016886706_1_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Both branches taken: from the six input buffers at their contents and the output's buffer and the accumulator
    at anything, the body runs to the continuation holding the inputs as they were, the accumulator with its
    pieces written (the whole reset, then the first cell) and the output's buffer with its pieces (one whole
    store) written. -/
noncomputable def kernelRunA (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : condReset i) (hc1 : condAcc i)
    (x0 x1 : Vec F S512x1024 .bf16) (x2 x3 : Vec F S512x1 .f32) (x4 x5 : Vec F S512x1 .i32) :
    Σ' (L6 : List (View.Piece (Elt F) S8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc0__cl_kernel i arg2 harg2 arg3 harg3 arg4 harg4 arg5 harg5 arg6 harg6 arg7 harg7 arg8 harg8 arg9 harg9) K } := by
  refine ⟨?_, ?_, fun E K => ?run⟩
  case run =>
    simp only [cc0__cl_kernel_eq_skeleton]; unfold cc0__cl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Hand

end
-- ==== Proof.KB.Data.lean ====
/-
  What the kernel body leaves at each grid point. Per control case: the pieces stored into the output's staging
  buffer tile it, so what it holds afterwards does not depend on what it held; the same for the accumulator
  where it is reset; where only its first cell is stored, what it holds is its pieces written over what the
  point before left. Then, by recursion on the point, the pair (output's buffer, accumulator) after each point,
  the region invariant between points, and the pipeline's proof data with its projections.
-/
import proofs.«179921_j88399016886706_1_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The stores of each case -/

/-- Reset and accumulate: the output's buffer is stored whole. -/
theorem coverA (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : condReset i) (hc1 : condAcc i) (x0 x1 : Vec F S512x1024 .bf16) (x2 x3 : Vec F S512x1 .f32) (x4 x5 : Vec F S512x1 .i32) (y : S8x128.Idx) :
    ∃ pc ∈ (kernelRunA c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRunA c i arg2 harg2 arg3 harg3 arg4 harg4 arg5 harg5 arg6 harg6 arg7 harg7 arg8 harg8 arg9 harg9 hc0 hc1 x0 x1 x2 x3 x4 x5).1 S8x128.size (by sl_kernel_rfl) y

/-- Reset and accumulate: the accumulator is stored whole (the reset), then its first cell. -/
theorem scoverA (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : condReset i) (hc1 : condAcc i) (x0 x1 : Vec F S512x1024 .bf16) (x2 x3 : Vec F S512x1 .f32) (x4 x5 : Vec F S512x1 .i32) (y : S8x128.Idx) :
    ∃ pc ∈ (kernelRunA c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRunA c i arg2 harg2 arg3 harg3 arg4 harg4 arg5 harg5 arg6 harg6 arg7 harg7 arg8 harg8 arg9 harg9 hc0 hc1 x0 x1 x2 x3 x4 x5).2.1 S8x128.size (by sl_kernel_rfl) y

/-- Accumulate without reset: the output's buffer is stored whole. -/
theorem coverB (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : condAcc i) (x0 x1 : Vec F S512x1024 .bf16) (x2 x3 : Vec F S512x1 .f32) (x4 x5 : Vec F S512x1 .i32) (xs : Vec F S8x128 .f32) (y : S8x128.Idx) :
    ∃ pc ∈ (kernelRunB c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRunB c i arg2 harg2 arg3 harg3 arg4 harg4 arg5 harg5 arg6 harg6 arg7 harg7 arg8 harg8 arg9 harg9 hc0 hc1 x0 x1 x2 x3 x4 x5 xs).1 S8x128.size (by sl_kernel_rfl) y

/-- Neither branch: the output's buffer is stored whole. -/
theorem coverC (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : ¬condAcc i) (x0 x1 : Vec F S512x1024 .bf16) (x2 x3 : Vec F S512x1 .f32) (x4 x5 : Vec F S512x1 .i32) (xs : Vec F S8x128 .f32) (y : S8x128.Idx) :
    ∃ pc ∈ (kernelRunC c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRunC c i arg2 harg2 arg3 harg3 arg4 harg4 arg5 harg5 arg6 harg6 arg7 harg7 arg8 harg8 arg9 harg9 hc0 hc1 x0 x1 x2 x3 x4 x5 xs).1 S8x128.size (by sl_kernel_rfl) y

/-! ## What each case leaves at a point -/

/-- The output's staging buffer after the first point: the stored pieces read back. -/
def outA (c : Dev nD) (t : Fin cfg0.N) (h0 : t.val = 0) (h1 : t.val / 16 ≤ t.val % 16) : Vec F S8x128 .f32 :=
  VO.read (Elt F) (VO.writes (Elt F) VO.junk (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcondReset t).mpr h0) ((hcondAcc t).mpr h1) (iblk m c 0 t) (iblk m c 1 t) (iblk m c 2 t) (iblk m c 3 t) (iblk m c 4 t) (iblk m c 5 t)).1)

/-- The accumulator after the first point: the reset and the first cell's store read back. -/
def soutA (c : Dev nD) (t : Fin cfg0.N) (h0 : t.val = 0) (h1 : t.val / 16 ≤ t.val % 16) : Vec F S8x128 .f32 :=
  VS.read (Elt F) (VS.writes (Elt F) VS.junk (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcondReset t).mpr h0) ((hcondAcc t).mpr h1) (iblk m c 0 t) (iblk m c 1 t) (iblk m c 2 t) (iblk m c 3 t) (iblk m c 4 t) (iblk m c 5 t)).2.1)

/-- The output's staging buffer after a later point whose block is accumulated, the accumulator found at `xs`. -/
def outB (c : Dev nD) (t : Fin cfg0.N) (h0 : t.val ≠ 0) (h1 : t.val / 16 ≤ t.val % 16) (xs : Vec F S8x128 .f32) : Vec F S8x128 .f32 :=
  VO.read (Elt F) (VO.writes (Elt F) VO.junk (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) ((hcondAcc t).mpr h1) (iblk m c 0 t) (iblk m c 1 t) (iblk m c 2 t) (iblk m c 3 t) (iblk m c 4 t) (iblk m c 5 t) xs).1)

/-- The accumulator after such a point: the first cell's store written over `xs`. -/
def soutB (c : Dev nD) (t : Fin cfg0.N) (h0 : t.val ≠ 0) (h1 : t.val / 16 ≤ t.val % 16) (xs : Vec F S8x128 .f32) : Vec F S8x128 .f32 :=
  VS.read (Elt F) (VS.writes (Elt F) ((Memref.isWhole_whole cc0_scratch0).unread xs) (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) ((hcondAcc t).mpr h1) (iblk m c 0 t) (iblk m c 1 t) (iblk m c 2 t) (iblk m c 3 t) (iblk m c 4 t) (iblk m c 5 t) xs).2.1)

/-- The output's staging buffer after a point whose block is skipped, the accumulator found (and left) at `xs`. -/
def outC (c : Dev nD) (t : Fin cfg0.N) (h0 : t.val ≠ 0) (h1 : ¬t.val / 16 ≤ t.val % 16) (xs : Vec F S8x128 .f32) : Vec F S8x128 .f32 :=
  VO.read (Elt F) (VO.writes (Elt F) VO.junk (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) (fun h => h1 ((hcondAcc t).mp h)) (iblk m c 0 t) (iblk m c 1 t) (iblk m c 2 t) (iblk m c 3 t) (iblk m c 4 t) (iblk m c 5 t) xs).1)

/-! ## Point by point -/

/-- The output's staging buffer and the accumulator after the body at point `n`: the first point resets, a later
    point whose block-row is at most its block-column accumulates over what the point before left, any other
    point leaves the accumulator as the point before left it. -/
def outsAt (c : Dev nD) : (n : ℕ) → n < cfg0.N → Vec F S8x128 .f32 × Vec F S8x128 .f32
  | 0, hn => (outA m c ⟨0, hn⟩ rfl (show (0 : ℕ) / 16 ≤ 0 % 16 from by decide), soutA m c ⟨0, hn⟩ rfl (show (0 : ℕ) / 16 ≤ 0 % 16 from by decide))
  | n + 1, hn =>
    if h1 : (n + 1) / 16 ≤ (n + 1) % 16 then
      (outB m c ⟨n + 1, hn⟩ (Nat.succ_ne_zero n) h1 (outsAt c n (Nat.lt_of_succ_lt hn)).2,
       soutB m c ⟨n + 1, hn⟩ (Nat.succ_ne_zero n) h1 (outsAt c n (Nat.lt_of_succ_lt hn)).2)
    else
      (outC m c ⟨n + 1, hn⟩ (Nat.succ_ne_zero n) h1 (outsAt c n (Nat.lt_of_succ_lt hn)).2,
       (outsAt c n (Nat.lt_of_succ_lt hn)).2)

/-- At the first point. -/
theorem outsAt_A (c : Dev nD) (t : Fin cfg0.N) (h0 : t.val = 0) (h1 : t.val / 16 ≤ t.val % 16) :
    outsAt m c t.val t.isLt = (outA m c t h0 h1, soutA m c t h0 h1) := by
  obtain ⟨n, hn⟩ := t
  cases n with
  | zero => exact rfl
  | succ n => exact absurd h0 (Nat.succ_ne_zero n)

/-- At a later point whose block is accumulated. -/
theorem outsAt_B (c : Dev nD) (t : Fin cfg0.N) (h0 : t.val ≠ 0) (h1 : t.val / 16 ≤ t.val % 16) :
    outsAt m c t.val t.isLt
      = (outB m c t h0 h1 (outsAt m c (t.val - 1) (Nat.lt_of_le_of_lt (Nat.sub_le _ _) t.isLt)).2,
         soutB m c t h0 h1 (outsAt m c (t.val - 1) (Nat.lt_of_le_of_lt (Nat.sub_le _ _) t.isLt)).2) := by
  obtain ⟨n, hn⟩ := t
  cases n with
  | zero => exact absurd rfl h0
  | succ n => exact (dif_pos h1).trans rfl

/-- At a point whose block is skipped. -/
theorem outsAt_C (c : Dev nD) (t : Fin cfg0.N) (h0 : t.val ≠ 0) (h1 : ¬t.val / 16 ≤ t.val % 16) :
    outsAt m c t.val t.isLt
      = (outC m c t h0 h1 (outsAt m c (t.val - 1) (Nat.lt_of_le_of_lt (Nat.sub_le _ _) t.isLt)).2,
         (outsAt m c (t.val - 1) (Nat.lt_of_le_of_lt (Nat.sub_le _ _) t.isLt)).2) := by
  obtain ⟨n, hn⟩ := t
  cases n with
  | zero => exact absurd rfl h0
  | succ n => exact (dif_neg h1).trans rfl

/-! ## The invariant between points -/

/-- Before the first point the accumulator holds anything; before point `n + 1` it holds what point `n` left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- On core `c`: the arrays as the region finds them; after the body at point `t` each input's buffer at its block
    and the output's at `outsAt`; the invariant `PhiS`; nothing owed. An array two windows read is held in halves,
    one per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q := fun
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]

/-! ## The inputs' buffers when the body runs

An input's current staging buffer holds its block at every point, fetched there or not: unfetched, the block
index has not moved since the point before, whose block the body left in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_0 (c : Dev nD) (t : Fin cfg0.N) (d) : (dats m 0 c).before 0 t d = iblk m c 0 t :=
  before_0_of m (dats m 0 c) (A_eq m c 0) (after_0 m c) t d
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_1 (c : Dev nD) (t : Fin cfg0.N) (d) : (dats m 0 c).before 1 t d = iblk m c 1 t :=
  before_1_of m (dats m 0 c) (A_eq m c 1) (after_1 m c) t d
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_2 (c : Dev nD) (t : Fin cfg0.N) (d) : (dats m 0 c).before 2 t d = iblk m c 2 t :=
  before_2_of m (dats m 0 c) (A_eq m c 2) (after_2 m c) t d
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_3 (c : Dev nD) (t : Fin cfg0.N) (d) : (dats m 0 c).before 3 t d = iblk m c 3 t :=
  before_3_of m (dats m 0 c) (A_eq m c 3) (after_3 m c) t d
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_4 (c : Dev nD) (t : Fin cfg0.N) (d) : (dats m 0 c).before 4 t d = iblk m c 4 t :=
  before_4_of m (dats m 0 c) (A_eq m c 4) (after_4 m c) t d
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_5 (c : Dev nD) (t : Fin cfg0.N) (d) : (dats m 0 c).before 5 t d = iblk m c 5 t :=
  before_5_of m (dats m 0 c) (A_eq m c 5) (after_5 m c) t d

end Cert.Kernel.Hand

end
-- ==== Proof.KB.Body.lean ====
/-
  The body obligation of the pipeline's proof data: at every grid point the kernel body, called on the current
  staging buffers holding the windows' blocks and on the accumulator as the point before left it, runs to the
  buffers and the accumulator at what the proof data states for the point. By cases on the point's control case,
  each discharged by that case's run.
-/
import proofs.«179921_j88399016886706_1_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the position decides the control case; the
    invariant hands over the accumulator at what the point before left (at anything before the first point) and
    takes it back at this point's contents; the output's buffer comes at anything and leaves at its stored
    pieces; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt 0 t], after_0]
  rw [show (dats m 0 c).leavesExact 1 t = owns (c : Thread nD τ) (ms1 t) fullShare ((dats m 0 c).after 1 t) from by
    unfold Dat.leavesExact; rw [liveAt 1 t], after_1]
  rw [show (dats m 0 c).leavesExact 2 t = owns (c : Thread nD τ) (ms2 t) fullShare ((dats m 0 c).after 2 t) from by
    unfold Dat.leavesExact; rw [liveAt 2 t], after_2]
  rw [show (dats m 0 c).leavesExact 3 t = owns (c : Thread nD τ) (ms3 t) fullShare ((dats m 0 c).after 3 t) from by
    unfold Dat.leavesExact; rw [liveAt 3 t], after_3]
  rw [show (dats m 0 c).leavesExact 4 t = owns (c : Thread nD τ) (ms4 t) fullShare ((dats m 0 c).after 4 t) from by
    unfold Dat.leavesExact; rw [liveAt 4 t], after_4]
  rw [show (dats m 0 c).leavesExact 5 t = owns (c : Thread nD τ) (ms5 t) fullShare ((dats m 0 c).after 5 t) from by
    unfold Dat.leavesExact; rw [liveAt 5 t], after_5]
  rw [show (dats m 0 c).leavesExact 6 t = owns (c : Thread nD τ) (ms6 t) fullShare ((dats m 0 c).after 6 t) from by
    unfold Dat.leavesExact; rw [liveAt 6 t], after_6]
  have hN : t.val < 256 := lt_of_lt_of_eq t.isLt (show cfg0.N = 256 from N_0)
  by_cases h0 : t.val = 0
  · by_cases h1 : t.val / 16 ≤ t.val % 16
    · rw [outsAt_A m c t h0 h1]
      unfold outA soutA; (try dsimp only)
      rw [PhiS_castSucc m c t, PhiS_zero m c _ _ h0, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcondReset t).mpr h0) ((hcondAcc t).mpr h1) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA c _ _ _ _ _ _ _ _ _ _ _ _ _ _ _ _ _ _ _ _ _ _ _ _ _)
    · exfalso; omega
  · by_cases h1 : t.val / 16 ≤ t.val % 16
    · rw [outsAt_B m c t h0 h1]
      unfold outB soutB; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) ((hcondAcc t).mpr h1) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverB c _ _ _ _ _ _ _ _ _ _ _ _ _ _ _ _ _ _ _ _ _ _ _ _ _ _)
    · rw [outsAt_C m c t h0 h1]
      unfold outC; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) (fun h => h1 ((hcondAcc t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.KB.Frame.lean ====
/-
  The frame of the pipelined kernel: the run of @main (the launch with the accumulator's invariant and the body
  obligation at every grid point) and, from it, that the program terminates without a fault and leaves its two
  argument arrays as launched.
-/
import proofs.«179921_j88399016886706_1_alg».proof.Proof.KB.Launch
import proofs.«179921_j88399016886706_1_alg».proof.Proof.KB.Body

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.Sem
open Idealize.ShloMosaic.Pipeline (Dat)

variable {F : FTy → Type} [FloatOps F]

variable (m : (ℓ : Loc nD τ sig) → Buf (Elt F) ℓ) (ρ : Dev nD → PrngReg)

/-- The proof data lend each shared array's two halves to its two windows. -/
theorem dats_q (c : Dev nD) : (dats m 0 c).q = qSplit := by
  funext w; fin_cases w <;> rfl

/-- The run: the scalar result is the host lines' value of the output array after the last point. -/
theorem run_main [∀ e, Nonempty (Elt F e)] :
    θ_run defs (onTc (τ := τ) (main (F := F))) ⟨m, fun _ => 0, ρ⟩ (fun r => ∀ c : Dev nD,
      r.2.mem ((c.tc : Thread nD τ).loc main_v5) = Wfin m c ((dats m 0 c).arrAt 6 cfg0.N) (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main_of m ρ (dats m) (body_obligation m) (A_eq m) (dats_q m) (fun _ _ => rfl) (hin m) (hout m)

/-- The frame: the program runs to its end and its argument arrays end unchanged. -/
theorem frame [∀ e, Nonempty (Elt F e)] :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Setup.lean ====
/-
  What the frame of this program's one pipelined kernel is stated over, shared by every module of the frame:
  the buffer contents when the kernel region is entered (the host lines before it applied to the launch memory),
  @main reduced to the region followed by the host lines after it, each window's block at a grid point read off
  its array, the two branch conditions of the body in closed form over the 16 x 16 grid (point t is block-row
  t / 16, block-column t % 16: the accumulator is reset at t = 0, a block is accumulated when row <= column),
  the staging memrefs the body is called with, and the region invariant with the accumulator scratch named.
-/
import proofs.«179921_j88399016886706_1_alg».proof.Proof.Gen.KernelIdeal.Launch
import proofs.«179921_j88399016886706_1_alg».proof.Proof.Gen.KernelIdeal.Skeleton
import proofs.«179921_j88399016886706_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the norm computation and the
    two host lines (the format change of the array, the reshape of the words to a column). -/
abbrev V0 (c : Dev nD) : Valuation τ sig (Elt F) :=
  StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches -/

/-- The reset branch is taken when both grid coordinates are zero. -/
abbrev condReset (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Over the grid: at the first point only. -/
theorem hcondReset : ∀ t : Fin cfg0.N, condReset (grid0.coords t) ↔ t.val = 0 :=
  (by decide +kernel : ∀ t : Fin grid0.N, condReset (grid0.coords t) ↔ t.val = 0)

/-- The accumulate branch is taken when the block-row is at most the block-column. -/
abbrev condAcc (i : grid0.Coords) : Prop :=
  Scalar.cmpi .ne (Scalar.extui (Scalar.cmpi .sle (BitVec.ofNat 32 (i 0).val) (BitVec.ofNat 32 (i 1).val))) 0#32 = 1#1
/-- Over the grid: point t is block (t / 16, t % 16). -/
theorem hcondAcc : ∀ t : Fin cfg0.N, condAcc (grid0.coords t) ↔ t.val / 16 ≤ t.val % 16 :=
  (by decide +kernel : ∀ t : Fin grid0.N, condAcc (grid0.coords t) ↔ t.val / 16 ≤ t.val % 16)

/-- The grid coordinates of point t. -/
theorem coords_eq : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- No window is idle at any point: the body stores the output at every point. -/
theorem liveAt : ∀ (w : Fin cfg0.W) (t : Fin cfg0.N), cfg0.idle w (grid0.coords t) = false := fun _ _ => rfl

/-! ## The memrefs the body is called with -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .f32 := win0_6.stage (cfg0.slots t 6)
abbrev hs6 (t : Fin cfg0.N) : (ms6 t).IsWhole := hstage0_6 ((cfg0.slots t 6).cast nbuf0_6)
/-- The accumulator: a whole scoped buffer of the kernel's own, passed beside the windows. -/
abbrev scM : Memref sig .tc .vmem S8x128 .f32 := Memref.whole cc0_scratch0
/-- The accumulator and the output's staging buffer as views, through which their contents are stated. -/
abbrev VS : View sig .tc .vmem S8x128 .f32 := scM.view
abbrev VO : View sig .tc .vmem S8x128 .f32 := (Memref.whole cc0_stg6_0 : Memref sig .tc .vmem S8x128 .f32).view

/-- The region invariant of a kernel that names nothing between points, with the accumulator as a memref owned at
    some contents: what the launch hands the first point and takes back after the last. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.EntryArgs.lean ====
/-
  The kernel region finds the two arguments of @main as the launch memory has them: no host
  line before the region writes an argument.
-/
import proofs.«179921_j88399016886706_1_alg».proof.Proof.KI.Setup
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem Idealize.ShloMosaic.StableHlo

variable {F : FTy → Type} [FloatOps F]

variable (m : (ℓ : Loc nD τ sig) → Buf (Elt F) ℓ)

/-- The first argument when the region is entered is the launch memory's. -/
theorem V_main_arg0 (c : Dev nD) : V m c main_arg0 = m ((c.tc : Thread nD τ).loc main_arg0) := by
  dsimp only [V, V0]
  simp only [hostOps0, hostOps0_1, List.flatten_cons, List.flatten_nil, List.append_nil,
    List.cons_append, List.nil_append]
  after_results

/-- The second argument when the region is entered is the launch memory's. -/
theorem V_main_arg1 (c : Dev nD) : V m c main_arg1 = m ((c.tc : Thread nD τ).loc main_arg1) := by
  dsimp only [V, V0]
  simp only [hostOps0, hostOps0_1, List.flatten_cons, List.flatten_nil, List.append_nil,
    List.cons_append, List.nil_append]
  after_results

end Cert.KernelIdeal.Hand

end
-- ==== Proof.KI.Launch.lean ====
/-
  The launch of the pipelined kernel when several of its input windows read ONE array: the run of @main from the
  body obligation. Each shared array's whole points-to is split into two half shares, one per window that reads it;
  the output array is held whole. After the last grid point the host lines that follow the region (a slice of the
  output's entry (0,0) and its reshape to a scalar) run within the output array and the two buffers they write.
-/
import proofs.«179921_j88399016886706_1_alg».proof.Proof.KI.EntryArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each input window holds of its array: the two windows on one array take its two halves. -/
def qSplit : Fin 7 → PosShare TreeShare := fun
  | ⟨0, _⟩ => fullShare.left | ⟨1, _⟩ => fullShare.right | ⟨2, _⟩ => fullShare.left | ⟨3, _⟩ => fullShare.right
  | ⟨4, _⟩ => fullShare.left | ⟨5, _⟩ => fullShare.right | ⟨6, _⟩ => fullShare
  | ⟨_ + 7, h⟩ => absurd h (Nat.not_lt.2 (Nat.le_add_left _ _))

/-- The four distinct buffers behind the seven windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v1) ↦{fullShare} W main_v1) ∗ (((c.tc : Thread nD τ).loc main_v0) ↦{fullShare} W main_v0)
          ∗ (((c.tc : Thread nD τ).loc main_v2) ↦{fullShare} W main_v2) ∗ (((c.tc : Thread nD τ).loc main_v3) ↦{fullShare} W main_v3)) := by
  unfold Pipeline.arrBufs
  rw [bigSep_eq_bigSepL_of_eq [main_v1, main_v0, main_v2, main_v3] (by decide) (by decide)]
  rfl

/-- The proof data's arrays, window by window, at the split shares. -/
theorem arrays_eq7 (c : Dev nD) (dat : Dat τ (Elt F) Unit ℕ (UR sig nD τ) ℕ cfg0 c) (hq : dat.q = qSplit)
    (Fa : (w : Fin cfg0.W) → Buf (Elt F) ((cfg0.win w).arr.view.loc (c.tc : Thread nD τ))) :
    (dat.arrays Fa : sProp 𝕄)
      = iprop((((c.tc : Thread nD τ).loc main_v1) ↦{fullShare.left} Fa 0) ∗ (((c.tc : Thread nD τ).loc main_v1) ↦{fullShare.right} Fa 1)
          ∗ (((c.tc : Thread nD τ).loc main_v0) ↦{fullShare.left} Fa 2) ∗ (((c.tc : Thread nD τ).loc main_v0) ↦{fullShare.right} Fa 3)
          ∗ (((c.tc : Thread nD τ).loc main_v2) ↦{fullShare.left} Fa 4) ∗ (((c.tc : Thread nD τ).loc main_v2) ↦{fullShare.right} Fa 5)
          ∗ (((c.tc : Thread nD τ).loc main_v3) ↦{fullShare} Fa 6)) := by
  have hs : ∀ w, dat.share w = qSplit w := by
    intro w; unfold Dat.share; rw [hq]; fin_cases w <;> rfl
  unfold Dat.arrays
  rw [show (bigSep Finset.univ fun w : Fin cfg0.W => ((cfg0.win w).arr.view.loc (c.tc : Thread nD τ) ↦[(cfg0.win w).arr.view.set]{dat.share w} Fa w : sProp 𝕄))
        = bigSep Finset.univ fun w : Fin cfg0.W => (((c.tc : Thread nD τ).loc (Pipeline.arrRef spec0 w)) ↦{qSplit w} Fa w : sProp 𝕄) from
      bigSep_congr fun w _ => by rw [(arr_whole0 w).set_eq_univ, hs w]]
  rw [bigSep_W0]
  rfl

/-! ## The host lines after the region -/

/-- The three buffers the lines after the region touch: the output array (read) and the two they write. -/
def tailSet : Finset (DevRef τ sig) := {Proc.devRef .tc main_v3, Proc.devRef .tc main_v4, Proc.devRef .tc main_v5}

/-- Those three held whole, one by one. -/
theorem tailSet_eq (c : Dev nD) (W : Valuation τ sig (Elt F)) :
    (StableHlo.held (c.tc : Thread nD τ) tailSet W : sProp 𝕄)
      = iprop((((c.tc : Thread nD τ).loc main_v3) ↦{fullShare} W (Proc.devRef .tc main_v3))
          ∗ (((c.tc : Thread nD τ).loc main_v4) ↦{fullShare} W (Proc.devRef .tc main_v4))
          ∗ (((c.tc : Thread nD τ).loc main_v5) ↦{fullShare} W (Proc.devRef .tc main_v5))) := by
  unfold StableHlo.held
  rw [bigSep_eq_bigSepL_of_eq [Proc.devRef .tc main_v3, Proc.devRef .tc main_v4, Proc.devRef .tc main_v5] (by decide) (by decide)]
  rfl

theorem hostOps1_tailSet : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl
  · show ({Proc.devRef .tc main_v3, Proc.devRef .tc main_v4} : Finset (DevRef τ sig)) ⊆ tailSet; decide
  · show ({Proc.devRef .tc main_v4, Proc.devRef .tc main_v5} : Finset (DevRef τ sig)) ⊆ tailSet; decide

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Core `c`'s buffer contents when the region is left: the entry contents with the output array at `a`. -/
abbrev Wout (c : Dev nD) (a : Buf (Elt F) ((c.tc : Thread nD τ).loc main_v3)) : Valuation τ sig (Elt F) :=
  Function.update (V0 m c) (Proc.devRef .tc main_v3) a
/-- and after the two host lines that follow the region. -/
abbrev Wfin (c : Dev nD) (a : Buf (Elt F) ((c.tc : Thread nD τ).loc main_v3)) : Valuation τ sig (Elt F) :=
  StableHlo.after hostOps1 (Wout m c a)

set_option backward.isDefEq.respectTransparency.types false in
/-- The lines after the region, run within the three buffers: the output array is read and left as it is. -/
theorem tail_run (c : Dev nD) (a : Buf (Elt F) ((c.tc : Thread nD τ).loc main_v3)) (Q' : PUnit → sProp 𝕄) :
    iprop((iprop((((c.tc : Thread nD τ).loc main_v3) ↦{fullShare} a)
              ∗ (((c.tc : Thread nD τ).loc main_v4) ↦{fullShare} Wfin m c a (Proc.devRef .tc main_v4))
              ∗ (((c.tc : Thread nD τ).loc main_v5) ↦{fullShare} Wfin m c a (Proc.devRef .tc main_v5))) -∗ Q' ⟨⟩)
        ∗ boundary (c.tc : Thread nD τ)
        ∗ (((c.tc : Thread nD τ).loc main_v3) ↦{fullShare} a)
        ∗ (((c.tc : Thread nD τ).loc main_v4) ↦{fullShare} V m c main_v4)
        ∗ (((c.tc : Thread nD τ).loc main_v5) ↦{fullShare} V m c main_v5))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  classical
  have hW : (StableHlo.held (c.tc : Thread nD τ) tailSet (Wout m c a) : sProp 𝕄)
      = iprop((((c.tc : Thread nD τ).loc main_v3) ↦{fullShare} a)
          ∗ (((c.tc : Thread nD τ).loc main_v4) ↦{fullShare} V m c main_v4)
          ∗ (((c.tc : Thread nD τ).loc main_v5) ↦{fullShare} V m c main_v5)) := by
    rw [tailSet_eq, show Wout m c a (Proc.devRef .tc main_v3) = a from Function.update_self _ _ _,
      show Wout m c a (Proc.devRef .tc main_v4) = V m c main_v4 from Function.update_of_ne (StableHlo.devRef_ne_of_ne (by decide)) _ _,
      show Wout m c a (Proc.devRef .tc main_v5) = V m c main_v5 from Function.update_of_ne (StableHlo.devRef_ne_of_ne (by decide)) _ _]
  have hW' : (StableHlo.held (c.tc : Thread nD τ) tailSet (Wfin m c a) : sProp 𝕄)
      = iprop((((c.tc : Thread nD τ).loc main_v3) ↦{fullShare} a)
          ∗ (((c.tc : Thread nD τ).loc main_v4) ↦{fullShare} Wfin m c a (Proc.devRef .tc main_v4))
          ∗ (((c.tc : Thread nD τ).loc main_v5) ↦{fullShare} Wfin m c a (Proc.devRef .tc main_v5))) := by
    rw [tailSet_eq]
    congr 2
  rw [show ([StableHlo.seq hostOps1] : List (Prog _ PUnit)) = ([hostOps1] : List (List (HloOp τ sig (Elt F)))).map StableHlo.seq ++ [] from rfl, ← hW]
  iintro ⟨Hk, Hb⟩
  iapply (Pipeline.wp_seqs_then (fun q => (cfgs q).toPCfg (Val := Elt F)) defs₀ Variants.none c tailSet [] [hostOps1] hostOps1_tailSet hostOps1_fresh' (Wout m c a)) $$ Hb
  iintro Hb
  rw [Pipeline.chain_nil, wp_pure, show ([hostOps1] : List (List (HloOp τ sig (Elt F)))).flatten = hostOps1 from by simp only [List.flatten_cons, List.flatten_nil, List.append_nil], hW']
  imodintro
  iapply Hk
  icases Hb with ⟨-, H⟩
  iexact H

set_option backward.isDefEq.respectTransparency.types false in
/-- THE RUN from the body obligation: at the compiled mesh, from any memory with zero counters, every weakly fair
    execution of @main terminates; the scalar result holds what the two host lines after the region compute from the
    output array as the pipeline leaves it after the last grid point, and the two arguments end as launched. -/
theorem run_main_of [∀ e, Nonempty (Elt F e)]
    (dats : (p : Fin 1) → (c : Dev nD) → Dat τ (Elt F) Unit ℕ (UR sig nD τ) ℕ (cfgs p) c)
    (hbody : ∀ c, BodyObligation (dats 0 c) (defs₀ (F := F)) Variants.none () Set.univ)
    (hA : ∀ c w, (dats 0 c).A w = V m c (Pipeline.arrRef spec0 w))
    (hq : ∀ c, (dats 0 c).q = qSplit)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c)
    :
    θ_run defs (onTc (τ := τ) (main (F := F))) ⟨m, fun _ => 0, ρ⟩ (fun r => ∀ c : Dev nD,
      r.2.mem ((c.tc : Thread nD τ).loc main_v5) = Wfin m c ((dats 0 c).arrAt 6 cfg0.N) (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  refine Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main (fun _ => Pipeline.chain [StableHlo.seq hostOps1])
    (fun c => (hbody c).loose) block_pos0 arr_whole0 stage_whole0 howed
    (G := fun _ => iprop(emp)) (u₀ := initOf (Pipeline.cells cfgs cellOf_inj) (Pipeline.launchToks cfgs cellOf_inj))
    (hu₀ := ?hu₀)
    (V := V m) (hmain := hmain m Variants.none) (hsplit := ?hsplit) (hpf := fun _ k => k.elim0)
    (X := fun c => iprop(∃ r, prngReg c r)) (Y := fun c => iprop(∃ r, prngReg c r)) (Z := ?Z)
    (Z' := fun c => iprop((((c.tc : Thread nD τ).loc main_v5) ↦{fullShare} Wfin m c ((dats 0 c).arrAt 6 cfg0.N) (Proc.devRef .tc main_v5))
        ∗ (((c.tc : Thread nD τ).loc main_arg0) ↦{fullShare} V m c main_arg0)
        ∗ (((c.tc : Thread nD τ).loc main_arg1) ↦{fullShare} V m c main_arg1)))
    (hX := ?hX) (hin := ?hin) (hout := ?hout) (htail := ?htail) (QY := fun c s => s.mem ((c.tc : Thread nD τ).loc main_v5) = Wfin m c ((dats 0 c).arrAt 6 cfg0.N) (Proc.devRef .tc main_v5)
        ∧ s.mem ((c.tc : Thread nD τ).loc main_arg0) = V m c main_arg0
        ∧ s.mem ((c.tc : Thread nD τ).loc main_arg1) = V m c main_arg1) (hY := ?hY) (hQ := ?hQ)
  case hu₀ =>
    iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case Z => exact fun c => Pipeline.unscopedRest (Ix := Unit) (Name := ℕ) (U := UR sig nD τ) (Lvl := ℕ) spec0 c (V m c)
  case hX =>
    intro c
    rw [Pipeline.unscopedRestP_none]
    iintro ⟨HU, -, -, -, Hp, -⟩; imodintro
    isplitl [Hp]; · iexists _; iexact Hp
    iexact HU
  case hin =>
    intro c
    refine (show _ ⊢ Pipeline.ΦA spec0 c from ?_).trans (hin c)
    unfold Pipeline.ΦA; iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]; · iexact Hp
    isplitr; · iempintro
    iexact Hr
  case hsplit =>
    intro c
    rw [arrBufs_eq, arrays_eq7 c (dats 0 c) (hq c)]
    have e : ∀ w, (dats 0 c).arrAt w 0 = V m c (Pipeline.arrRef spec0 w) := fun w => hA c w
    rw [e 0, e 1, e 2, e 3, e 4, e 5, e 6]
    have hh := PosShare.mem_left_op_right fullShare
    iintro ⟨H1, H0, H2, H3⟩
    ihave H1' := (pointsTo_share hh).1 $$ H1
    ihave H0' := (pointsTo_share hh).1 $$ H0
    ihave H2' := (pointsTo_share hh).1 $$ H2
    icases H1' with ⟨H1l, H1r⟩
    icases H0' with ⟨H0l, H0r⟩
    icases H2' with ⟨H2l, H2r⟩
    isplitl [H1l]; · iexact H1l
    isplitl [H1r]; · iexact H1r
    isplitl [H0l]; · iexact H0l
    isplitl [H0r]; · iexact H0r
    isplitl [H2l]; · iexact H2l
    isplitl [H2r]; · iexact H2r
    iexact H3
  case htail =>
    intro c Q'
    rw [arrays_eq7 c (dats 0 c) (hq c), unscopedRest0_eq]
    iintro ⟨Hk, Hb, ⟨A0, A1, A2, A3, A4, A5, A6⟩, ⟨Ha0, Ha1, Hc0, Hc1, Hc2, Hc3, H4, H5⟩⟩
    iapply (tail_run m c ((dats 0 c).arrAt 6 cfg0.N) Q')
    isplitl [Hk A0 A1 A2 A3 A4 A5 Ha0 Ha1]
    · iintro ⟨B3, B4, B5⟩
      iapply Hk
      isplitl [A0 A1 A2 A3 A4 A5 B3]
      · isplitl [A0]; · iexact A0
        isplitl [A1]; · iexact A1
        isplitl [A2]; · iexact A2
        isplitl [A3]; · iexact A3
        isplitl [A4]; · iexact A4
        isplitl [A5]; · iexact A5
        iexact B3
      isplitl [B5]; · iexact B5
      isplitl [Ha0]; · iexact Ha0
      iexact Ha1
    isplitl [Hb]; · iexact Hb
    isplitl [A6]; · iexact A6
    isplitl [H4]; · iexact H4
    iexact H5
  case hY =>
    intro c s'
    iintro ⟨-, ⟨H5, Ha0, Ha1⟩, HSI⟩
    icombine HSI H5 gives %h5
    icombine HSI Ha0 gives %h0
    icombine HSI Ha1 gives %h1
    imodintro
    isplitr
    · ipureintro; exact ⟨Buf.eq_of_forall_mem_univ h5, Buf.eq_of_forall_mem_univ h0, Buf.eq_of_forall_mem_univ h1⟩
    iexact HSI
  case hQ =>
    intro s h c
    exact ⟨(h c).2.2.1, (h c).2.2.2.1.trans (V_main_arg0 m c), (h c).2.2.2.2.trans (V_main_arg1 m c)⟩
-- ==== Proof.KI.RunC.lean ====
/-
  The kernel body at a grid point where neither branch is taken (block-row above block-column, not the first
  point): the accumulator is only read, and what it holds is stored whole into the output's staging buffer.
  The triple is stated over any whole memrefs; the pieces the output's buffer ends with are found by the run.
-/
import proofs.«179921_j88399016886706_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- Neither branch taken: from the six input buffers at their contents, the output's buffer at anything and the
    accumulator at `xs`, the body runs to the continuation holding the inputs and the accumulator as they were and
    the output's buffer with its pieces (one whole store) written. -/
noncomputable def kernelRunC (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : ¬condAcc i)
    (x0 x1 : Vec F S512x1024 .bf16) (x2 x3 : Vec F S512x1 .f32) (x4 x5 : Vec F S512x1 .i32) (xs : Vec F S8x128 .f32) :
    { L6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ owns (c : Thread nD τ) arg9 fullShare xs) -∗ K ⟨⟩))
          ⊢ wp frame (wpE (defs₀ (F := F)) Variants.none c none) E (cc0__cl_kernel i arg2 harg2 arg3 harg3 arg4 harg4 arg5 harg5 arg6 harg6 arg7 harg7 arg8 harg8 arg9 harg9) K } := by
  refine ⟨?_, fun E K => ?run⟩
  case run =>
    simp only [cc0__cl_kernel_eq_skeleton]; unfold cc0__cl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS

end Cert.KernelIdeal.Hand

end
-- ==== Proof.KI.RunB.lean ====
/-
  The kernel body at a grid point other than the first where the block is accumulated (block-row at most
  block-column): the block's partial sum is added into the accumulator's first cell, and what the accumulator
  then holds is stored whole into the output's staging buffer. The triple is stated over any whole memrefs;
  the pieces each stored buffer ends with are found by the run. The accumulator's store covers one cell only,
  so its pieces are handed back written over the contents it came with.
-/
import proofs.«179921_j88399016886706_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Accumulation without reset: from the six input buffers at their contents, the output's buffer at anything and
    the accumulator at `xs`, the body runs to the continuation holding the inputs as they were, the accumulator
    with its piece (the first cell) written over `xs`, and the output's buffer with its pieces (one whole store)
    written. -/
noncomputable def kernelRunB (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : condAcc i)
    (x0 x1 : Vec F S512x1024 .bf16) (x2 x3 : Vec F S512x1 .f32) (x4 x5 : Vec F S512x1 .i32) (xs : Vec F S8x128 .f32) :
    Σ' (L6 : List (View.Piece (Elt F) S8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (arg9.view.loc (c : Thread nD τ) ↦[arg9.view.set]{fullShare} arg9.view.writes (Elt F) (harg9.unread xs) LS)) -∗ K ⟨⟩))
          ⊢ wp frame (wpE (defs₀ (F := F)) Variants.none c none) E (cc0__cl_kernel i arg2 harg2 arg3 harg3 arg4 harg4 arg5 harg5 arg6 harg6 arg7 harg7 arg8 harg8 arg9 harg9) K } := by
  refine ⟨?_, ?_, fun E K => ?run⟩
  case run =>
    simp only [cc0__cl_kernel_eq_skeleton]; unfold cc0__cl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexact HS

end Cert.KernelIdeal.Hand

end
-- ==== Proof.KI.RunA.lean ====
/-
  The kernel body at the first grid point, where both branches are taken: the accumulator is reset to zeros,
  the block's partial sum is added into its first cell, and what it then holds is stored whole into the
  output's staging buffer. The triple is stated over any whole memrefs; the pieces each stored buffer ends with
  are found by the run.
-/
import proofs.«179921_j88399016886706_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Both branches taken: from the six input buffers at their contents and the output's buffer and the accumulator
    at anything, the body runs to the continuation holding the inputs as they were, the accumulator with its
    pieces written (the whole reset, then the first cell) and the output's buffer with its pieces (one whole
    store) written. -/
noncomputable def kernelRunA (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : condReset i) (hc1 : condAcc i)
    (x0 x1 : Vec F S512x1024 .bf16) (x2 x3 : Vec F S512x1 .f32) (x4 x5 : Vec F S512x1 .i32) :
    Σ' (L6 : List (View.Piece (Elt F) S8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc0__cl_kernel i arg2 harg2 arg3 harg3 arg4 harg4 arg5 harg5 arg6 harg6 arg7 harg7 arg8 harg8 arg9 harg9) K } := by
  refine ⟨?_, ?_, fun E K => ?run⟩
  case run =>
    simp only [cc0__cl_kernel_eq_skeleton]; unfold cc0__cl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Hand

end
-- ==== Proof.KI.Data.lean ====
/-
  What the kernel body leaves at each grid point. Per control case: the pieces stored into the output's staging
  buffer tile it, so what it holds afterwards does not depend on what it held; the same for the accumulator
  where it is reset; where only its first cell is stored, what it holds is its pieces written over what the
  point before left. Then, by recursion on the point, the pair (output's buffer, accumulator) after each point,
  the region invariant between points, and the pipeline's proof data with its projections.
-/
import proofs.«179921_j88399016886706_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The stores of each case -/

/-- Reset and accumulate: the output's buffer is stored whole. -/
theorem coverA (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : condReset i) (hc1 : condAcc i) (x0 x1 : Vec F S512x1024 .bf16) (x2 x3 : Vec F S512x1 .f32) (x4 x5 : Vec F S512x1 .i32) (y : S8x128.Idx) :
    ∃ pc ∈ (kernelRunA c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRunA c i arg2 harg2 arg3 harg3 arg4 harg4 arg5 harg5 arg6 harg6 arg7 harg7 arg8 harg8 arg9 harg9 hc0 hc1 x0 x1 x2 x3 x4 x5).1 S8x128.size (by sl_kernel_rfl) y

/-- Reset and accumulate: the accumulator is stored whole (the reset), then its first cell. -/
theorem scoverA (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : condReset i) (hc1 : condAcc i) (x0 x1 : Vec F S512x1024 .bf16) (x2 x3 : Vec F S512x1 .f32) (x4 x5 : Vec F S512x1 .i32) (y : S8x128.Idx) :
    ∃ pc ∈ (kernelRunA c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRunA c i arg2 harg2 arg3 harg3 arg4 harg4 arg5 harg5 arg6 harg6 arg7 harg7 arg8 harg8 arg9 harg9 hc0 hc1 x0 x1 x2 x3 x4 x5).2.1 S8x128.size (by sl_kernel_rfl) y

/-- Accumulate without reset: the output's buffer is stored whole. -/
theorem coverB (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : condAcc i) (x0 x1 : Vec F S512x1024 .bf16) (x2 x3 : Vec F S512x1 .f32) (x4 x5 : Vec F S512x1 .i32) (xs : Vec F S8x128 .f32) (y : S8x128.Idx) :
    ∃ pc ∈ (kernelRunB c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRunB c i arg2 harg2 arg3 harg3 arg4 harg4 arg5 harg5 arg6 harg6 arg7 harg7 arg8 harg8 arg9 harg9 hc0 hc1 x0 x1 x2 x3 x4 x5 xs).1 S8x128.size (by sl_kernel_rfl) y

/-- Neither branch: the output's buffer is stored whole. -/
theorem coverC (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : ¬condAcc i) (x0 x1 : Vec F S512x1024 .bf16) (x2 x3 : Vec F S512x1 .f32) (x4 x5 : Vec F S512x1 .i32) (xs : Vec F S8x128 .f32) (y : S8x128.Idx) :
    ∃ pc ∈ (kernelRunC c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRunC c i arg2 harg2 arg3 harg3 arg4 harg4 arg5 harg5 arg6 harg6 arg7 harg7 arg8 harg8 arg9 harg9 hc0 hc1 x0 x1 x2 x3 x4 x5 xs).1 S8x128.size (by sl_kernel_rfl) y

/-! ## What each case leaves at a point -/

/-- The output's staging buffer after the first point: the stored pieces read back. -/
def outA (c : Dev nD) (t : Fin cfg0.N) (h0 : t.val = 0) (h1 : t.val / 16 ≤ t.val % 16) : Vec F S8x128 .f32 :=
  VO.read (Elt F) (VO.writes (Elt F) VO.junk (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcondReset t).mpr h0) ((hcondAcc t).mpr h1) (iblk m c 0 t) (iblk m c 1 t) (iblk m c 2 t) (iblk m c 3 t) (iblk m c 4 t) (iblk m c 5 t)).1)

/-- The accumulator after the first point: the reset and the first cell's store read back. -/
def soutA (c : Dev nD) (t : Fin cfg0.N) (h0 : t.val = 0) (h1 : t.val / 16 ≤ t.val % 16) : Vec F S8x128 .f32 :=
  VS.read (Elt F) (VS.writes (Elt F) VS.junk (kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcondReset t).mpr h0) ((hcondAcc t).mpr h1) (iblk m c 0 t) (iblk m c 1 t) (iblk m c 2 t) (iblk m c 3 t) (iblk m c 4 t) (iblk m c 5 t)).2.1)

/-- The output's staging buffer after a later point whose block is accumulated, the accumulator found at `xs`. -/
def outB (c : Dev nD) (t : Fin cfg0.N) (h0 : t.val ≠ 0) (h1 : t.val / 16 ≤ t.val % 16) (xs : Vec F S8x128 .f32) : Vec F S8x128 .f32 :=
  VO.read (Elt F) (VO.writes (Elt F) VO.junk (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) ((hcondAcc t).mpr h1) (iblk m c 0 t) (iblk m c 1 t) (iblk m c 2 t) (iblk m c 3 t) (iblk m c 4 t) (iblk m c 5 t) xs).1)

/-- The accumulator after such a point: the first cell's store written over `xs`. -/
def soutB (c : Dev nD) (t : Fin cfg0.N) (h0 : t.val ≠ 0) (h1 : t.val / 16 ≤ t.val % 16) (xs : Vec F S8x128 .f32) : Vec F S8x128 .f32 :=
  VS.read (Elt F) (VS.writes (Elt F) ((Memref.isWhole_whole cc0_scratch0).unread xs) (kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) ((hcondAcc t).mpr h1) (iblk m c 0 t) (iblk m c 1 t) (iblk m c 2 t) (iblk m c 3 t) (iblk m c 4 t) (iblk m c 5 t) xs).2.1)

/-- The output's staging buffer after a point whose block is skipped, the accumulator found (and left) at `xs`. -/
def outC (c : Dev nD) (t : Fin cfg0.N) (h0 : t.val ≠ 0) (h1 : ¬t.val / 16 ≤ t.val % 16) (xs : Vec F S8x128 .f32) : Vec F S8x128 .f32 :=
  VO.read (Elt F) (VO.writes (Elt F) VO.junk (kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) (fun h => h1 ((hcondAcc t).mp h)) (iblk m c 0 t) (iblk m c 1 t) (iblk m c 2 t) (iblk m c 3 t) (iblk m c 4 t) (iblk m c 5 t) xs).1)

/-! ## Point by point -/

/-- The output's staging buffer and the accumulator after the body at point `n`: the first point resets, a later
    point whose block-row is at most its block-column accumulates over what the point before left, any other
    point leaves the accumulator as the point before left it. -/
def outsAt (c : Dev nD) : (n : ℕ) → n < cfg0.N → Vec F S8x128 .f32 × Vec F S8x128 .f32
  | 0, hn => (outA m c ⟨0, hn⟩ rfl (show (0 : ℕ) / 16 ≤ 0 % 16 from by decide), soutA m c ⟨0, hn⟩ rfl (show (0 : ℕ) / 16 ≤ 0 % 16 from by decide))
  | n + 1, hn =>
    if h1 : (n + 1) / 16 ≤ (n + 1) % 16 then
      (outB m c ⟨n + 1, hn⟩ (Nat.succ_ne_zero n) h1 (outsAt c n (Nat.lt_of_succ_lt hn)).2,
       soutB m c ⟨n + 1, hn⟩ (Nat.succ_ne_zero n) h1 (outsAt c n (Nat.lt_of_succ_lt hn)).2)
    else
      (outC m c ⟨n + 1, hn⟩ (Nat.succ_ne_zero n) h1 (outsAt c n (Nat.lt_of_succ_lt hn)).2,
       (outsAt c n (Nat.lt_of_succ_lt hn)).2)

/-- At the first point. -/
theorem outsAt_A (c : Dev nD) (t : Fin cfg0.N) (h0 : t.val = 0) (h1 : t.val / 16 ≤ t.val % 16) :
    outsAt m c t.val t.isLt = (outA m c t h0 h1, soutA m c t h0 h1) := by
  obtain ⟨n, hn⟩ := t
  cases n with
  | zero => exact rfl
  | succ n => exact absurd h0 (Nat.succ_ne_zero n)

/-- At a later point whose block is accumulated. -/
theorem outsAt_B (c : Dev nD) (t : Fin cfg0.N) (h0 : t.val ≠ 0) (h1 : t.val / 16 ≤ t.val % 16) :
    outsAt m c t.val t.isLt
      = (outB m c t h0 h1 (outsAt m c (t.val - 1) (Nat.lt_of_le_of_lt (Nat.sub_le _ _) t.isLt)).2,
         soutB m c t h0 h1 (outsAt m c (t.val - 1) (Nat.lt_of_le_of_lt (Nat.sub_le _ _) t.isLt)).2) := by
  obtain ⟨n, hn⟩ := t
  cases n with
  | zero => exact absurd rfl h0
  | succ n => exact (dif_pos h1).trans rfl

/-- At a point whose block is skipped. -/
theorem outsAt_C (c : Dev nD) (t : Fin cfg0.N) (h0 : t.val ≠ 0) (h1 : ¬t.val / 16 ≤ t.val % 16) :
    outsAt m c t.val t.isLt
      = (outC m c t h0 h1 (outsAt m c (t.val - 1) (Nat.lt_of_le_of_lt (Nat.sub_le _ _) t.isLt)).2,
         (outsAt m c (t.val - 1) (Nat.lt_of_le_of_lt (Nat.sub_le _ _) t.isLt)).2) := by
  obtain ⟨n, hn⟩ := t
  cases n with
  | zero => exact absurd rfl h0
  | succ n => exact (dif_neg h1).trans rfl

/-! ## The invariant between points -/

/-- Before the first point the accumulator holds anything; before point `n + 1` it holds what point `n` left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- On core `c`: the arrays as the region finds them; after the body at point `t` each input's buffer at its block
    and the output's at `outsAt`; the invariant `PhiS`; nothing owed. An array two windows read is held in halves,
    one per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q := fun
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]

/-! ## The inputs' buffers when the body runs

An input's current staging buffer holds its block at every point, fetched there or not: unfetched, the block
index has not moved since the point before, whose block the body left in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_0 (c : Dev nD) (t : Fin cfg0.N) (d) : (dats m 0 c).before 0 t d = iblk m c 0 t :=
  before_0_of m (dats m 0 c) (A_eq m c 0) (after_0 m c) t d
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_1 (c : Dev nD) (t : Fin cfg0.N) (d) : (dats m 0 c).before 1 t d = iblk m c 1 t :=
  before_1_of m (dats m 0 c) (A_eq m c 1) (after_1 m c) t d
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_2 (c : Dev nD) (t : Fin cfg0.N) (d) : (dats m 0 c).before 2 t d = iblk m c 2 t :=
  before_2_of m (dats m 0 c) (A_eq m c 2) (after_2 m c) t d
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_3 (c : Dev nD) (t : Fin cfg0.N) (d) : (dats m 0 c).before 3 t d = iblk m c 3 t :=
  before_3_of m (dats m 0 c) (A_eq m c 3) (after_3 m c) t d
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_4 (c : Dev nD) (t : Fin cfg0.N) (d) : (dats m 0 c).before 4 t d = iblk m c 4 t :=
  before_4_of m (dats m 0 c) (A_eq m c 4) (after_4 m c) t d
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_5 (c : Dev nD) (t : Fin cfg0.N) (d) : (dats m 0 c).before 5 t d = iblk m c 5 t :=
  before_5_of m (dats m 0 c) (A_eq m c 5) (after_5 m c) t d

end Cert.KernelIdeal.Hand

end
-- ==== Proof.KI.Body.lean ====
/-
  The body obligation of the pipeline's proof data: at every grid point the kernel body, called on the current
  staging buffers holding the windows' blocks and on the accumulator as the point before left it, runs to the
  buffers and the accumulator at what the proof data states for the point. By cases on the point's control case,
  each discharged by that case's run.
-/
import proofs.«179921_j88399016886706_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the position decides the control case; the
    invariant hands over the accumulator at what the point before left (at anything before the first point) and
    takes it back at this point's contents; the output's buffer comes at anything and leaves at its stored
    pieces; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt 0 t], after_0]
  rw [show (dats m 0 c).leavesExact 1 t = owns (c : Thread nD τ) (ms1 t) fullShare ((dats m 0 c).after 1 t) from by
    unfold Dat.leavesExact; rw [liveAt 1 t], after_1]
  rw [show (dats m 0 c).leavesExact 2 t = owns (c : Thread nD τ) (ms2 t) fullShare ((dats m 0 c).after 2 t) from by
    unfold Dat.leavesExact; rw [liveAt 2 t], after_2]
  rw [show (dats m 0 c).leavesExact 3 t = owns (c : Thread nD τ) (ms3 t) fullShare ((dats m 0 c).after 3 t) from by
    unfold Dat.leavesExact; rw [liveAt 3 t], after_3]
  rw [show (dats m 0 c).leavesExact 4 t = owns (c : Thread nD τ) (ms4 t) fullShare ((dats m 0 c).after 4 t) from by
    unfold Dat.leavesExact; rw [liveAt 4 t], after_4]
  rw [show (dats m 0 c).leavesExact 5 t = owns (c : Thread nD τ) (ms5 t) fullShare ((dats m 0 c).after 5 t) from by
    unfold Dat.leavesExact; rw [liveAt 5 t], after_5]
  rw [show (dats m 0 c).leavesExact 6 t = owns (c : Thread nD τ) (ms6 t) fullShare ((dats m 0 c).after 6 t) from by
    unfold Dat.leavesExact; rw [liveAt 6 t], after_6]
  have hN : t.val < 256 := lt_of_lt_of_eq t.isLt (show cfg0.N = 256 from N_0)
  by_cases h0 : t.val = 0
  · by_cases h1 : t.val / 16 ≤ t.val % 16
    · rw [outsAt_A m c t h0 h1]
      unfold outA soutA; (try dsimp only)
      rw [PhiS_castSucc m c t, PhiS_zero m c _ _ h0, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcondReset t).mpr h0) ((hcondAcc t).mpr h1) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA c _ _ _ _ _ _ _ _ _ _ _ _ _ _ _ _ _ _ _ _ _ _ _ _ _)
    · exfalso; omega
  · by_cases h1 : t.val / 16 ≤ t.val % 16
    · rw [outsAt_B m c t h0 h1]
      unfold outB soutB; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) ((hcondAcc t).mpr h1) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverB c _ _ _ _ _ _ _ _ _ _ _ _ _ _ _ _ _ _ _ _ _ _ _ _ _ _)
    · rw [outsAt_C m c t h0 h1]
      unfold outC; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((kernelRunC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) (fun h => h1 ((hcondAcc t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.KI.Frame.lean ====
/-
  The frame of the pipelined kernel: the run of @main (the launch with the accumulator's invariant and the body
  obligation at every grid point) and, from it, that the program terminates without a fault and leaves its two
  argument arrays as launched.
-/
import proofs.«179921_j88399016886706_1_alg».proof.Proof.KI.Launch
import proofs.«179921_j88399016886706_1_alg».proof.Proof.KI.Body

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.Sem
open Idealize.ShloMosaic.Pipeline (Dat)

variable {F : FTy → Type} [FloatOps F]

variable (m : (ℓ : Loc nD τ sig) → Buf (Elt F) ℓ) (ρ : Dev nD → PrngReg)

/-- The proof data lend each shared array's two halves to its two windows. -/
theorem dats_q (c : Dev nD) : (dats m 0 c).q = qSplit := by
  funext w; fin_cases w <;> rfl

/-- The run: the scalar result is the host lines' value of the output array after the last point. -/
theorem run_main [∀ e, Nonempty (Elt F e)] :
    θ_run defs (onTc (τ := τ) (main (F := F))) ⟨m, fun _ => 0, ρ⟩ (fun r => ∀ c : Dev nD,
      r.2.mem ((c.tc : Thread nD τ).loc main_v5) = Wfin m c ((dats m 0 c).arrAt 6 cfg0.N) (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main_of m ρ (dats m) (body_obligation m) (A_eq m) (dats_q m) (fun _ _ => rfl) (hin m) (hout m)

/-- The frame: the program runs to its end and its argument arrays end unchanged. -/
theorem frame [∀ e, Nonempty (Elt F e)] :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KI.OutValue.lean ====
/-
  The two ends of the kernel's value chain: the output array after the last grid point is what
  the body left in the output's staging buffer there (the window is the whole array and is
  written back at the last point only), and the two host lines after the region read its
  entry (0, 0) as the result scalar.
-/
import proofs.«179921_j88399016886706_1_alg».proof.Proof.KI.Data
import Idealize.ShloMosaic.Lib.StableHlo.Run
import Idealize.ShloMosaic.Lib.Pipeline.Value
import Idealize.ShloMosaic.Lib.ValueIdx

set_option maxRecDepth 16384

noncomputable section

namespace Cert.KernelIdeal.OutValue

open Cert.KernelIdeal Cert.KernelIdeal.Gen Cert.KernelIdeal.Hand
open Idealize.ShloMosaic Idealize.ShloMosaic.TcCoe Idealize.ShloMosaic.Tactic
open Idealize.SL.Sem Idealize.ShloMosaic.StableHlo
open Idealize.ShloMosaic.Pipeline (Dat Cfg Window)
open Idealize.ShloMosaic.ValueIdx (ix0 ix1 ix2)

variable {F : FTy → Type} [FloatOps F]

variable (m : (ℓ : Loc nD τ sig) → Buf (Elt F) ℓ)

/-- The two host lines after the region: the slice [0:1, 0:1] of the output array, reshaped to
    a scalar, is the array's entry (0, 0). -/
theorem tail_value (c : Dev nD) (a : Buf (Elt F) ((c.tc : Thread nD τ).loc main_v3)) :
    StableHlo.after hostOps1 (Function.update (V0 m c) (Proc.devRef .tc main_v3) a) (Proc.devRef .tc main_v5)
      = fun _ => a (ix2 0 0) := by
  simp only [hostOps1]
  after_results
  rw [Function.update_self]
  funext i
  show shapeCast S_ (extractStridedSlice S1x1 ![0, 0] (a : S8x128.Idx → Elt F .f32) slices_S8x128_S1x1_0_0) shapeCasts_S1x1_S_ i
    = a (ix2 0 0)
  refine (shapeCast_apply _ shapeCasts_S1x1_S_ i (ix2 (0 : Fin 1) (0 : Fin 1)) ?_).trans ?_
  · have h1 : (S1x1.rowMajor (ix2 (0 : Fin 1) (0 : Fin 1))).val < 1 := (S1x1.rowMajor _).isLt
    have h2 : (S_.rowMajor i).val < 1 := (S_.rowMajor i).isLt
    omega
  · exact extractStridedSlice_apply ![0, 0] (a : S8x128.Idx → Elt F .f32) slices_S8x128_S1x1_0_0
      (ix2 (0 : Fin 1) (0 : Fin 1)) (ix2 (0 : Fin 8) (0 : Fin 128))
      (fun ax => match ax with | ⟨0, _⟩ => rfl | ⟨1, _⟩ => rfl)

/-- The output window's block index is (0, 0) at every point. -/
theorem idx6 : ∀ t : Fin cfg0.N, win0_6.index t (0 : Fin 2) = 0 ∧ win0_6.index t (1 : Fin 2) = 0 :=
  (by decide +kernel : ∀ t : Fin grid0.N, _)

/-- A grid point is below 256. -/
theorem t_lt (t : Fin cfg0.N) : t.val < 256 := lt_of_lt_of_eq t.isLt N_0

/-- The last point of the grid. -/
theorem last_lt : 255 < cfg0.N := lt_of_lt_of_eq (by decide : 255 < 256) N_0.symm

/-- The output window's block is the whole array: an index of the block is the same index of
    the array. -/
theorem emb6 (t : Fin cfg0.N) (j : S8x128.Idx) : ((cfg0.win 6).blk t).view.emb j = j := by
  funext ax; apply Fin.ext
  obtain ⟨e0, e1⟩ := idx6 t
  match ax with
  | ⟨0, _⟩ => show win0_6.index t (0 : Fin 2) * 8 + 1 * (j 0).val = (j 0).val; omega
  | ⟨1, _⟩ => show win0_6.index t (1 : Fin 2) * 128 + 1 * (j 1).val = (j 1).val; omega

/-- Every index of the array is in the output window's block at every point. -/
theorem mem_blk6 (t : Fin cfg0.N) (i : S8x128.Idx) : i ∈ ((cfg0.win 6).blk t).view.set := by
  show i ∈ ((View.whole main_v3).slice (win0_6.rect t)).set
  rw [View.set_slice_whole, Rect.mem_set_unit]
  obtain ⟨e0, e1⟩ := idx6 t
  intro ax
  match ax with
  | ⟨0, _⟩ =>
    show win0_6.index t (0 : Fin 2) * 8 ≤ (i 0).val ∧ (i 0).val < win0_6.index t (0 : Fin 2) * 8 + 8
    have h : (i 0).val < 8 := (i 0).isLt
    omega
  | ⟨1, _⟩ =>
    show win0_6.index t (1 : Fin 2) * 128 ≤ (i 1).val ∧ (i 1).val < win0_6.index t (1 : Fin 2) * 128 + 128
    have h : (i 1).val < 128 := (i 1).isLt
    omega

/-- The output array after the last point is what the body left in the output's staging
    buffer at the last point: the one write-back, of the whole array. -/
theorem arr_last (c : Dev nD) :
    ((dats m 0 c).arrAt 6 cfg0.N : S8x128.Idx → Elt F .f32) = (outsAt m c 255 last_lt).1 := by
  refine (dats m 0 c).arrAt_eq_of_cover 6 (outsAt m c 255 last_lt).1 (fun t hf => ?_) (fun i => ?_)
  · have h255 : t.val = 255 := by have h1 := (flush0_6 t).mp hf; have h2 := t_lt t; omega
    show (cfg0.win 6).cut (grid0.coords t) ((dats m 0 c).after 6 t) = _
    rw [after_6]
    obtain ⟨tv, ht⟩ := t
    subst h255
    funext j
    show (outsAt m c 255 ht).1 j = (outsAt m c 255 last_lt).1 (((cfg0.win 6).blk ⟨255, ht⟩).view.emb j)
    rw [emb6]
  · exact ⟨⟨255, last_lt⟩, (flush0_6 _).mpr (by decide), mem_blk6 _ i⟩

end Cert.KernelIdeal.OutValue

end
-- ==== Proof.Spec.lean ====
/-
  The specification both programs are compared with: the masked pair matrix of the
  cosine similarities of the rows of an 8192 x 1024 array, and its sum over all pairs.
  No program is imported here.
-/
import Idealize.ShloMosaic.PureOps.Ideal
import Idealize.ShloMosaic.PureOps.Ideal.Laws
import Idealize.ShloMosaic.Lib.ValueIdx
import Idealize.ShloMosaic.Lib.StableHlo

noncomputable section

namespace Cert.Spec

open Idealize.ShloMosaic Idealize.ShloMosaic.StableHlo

/-- the embedding array -/
abbrev SX : Shape := ⟨2, ![8192, 1024]⟩
/-- one word per row -/
abbrev SI : Shape := ⟨1, ![8192]⟩
/-- the norms as a column -/
abbrev SN : Shape := ⟨2, ![8192, 1]⟩
/-- a scalar -/
abbrev S0 : Shape := ⟨0, ![]⟩

/-- The row norms as the host computes them in both programs, kept as one function that is
    never opened: the square root of (0 + the row's sum of squares), as a column. The three
    shape facts are arguments (they are propositions: any two proofs agree). -/
def normArr (hr : SX.ReducesTo [1] SI) (hn : 0 < S0.numel)
    (hb : SI.BroadcastsInDim SN (![0] : Fin 1 → Fin SN.rank))
    (x : FVec Ideal SX .f32) : FVec Ideal SN .f32 :=
  Host.sqrt (broadcastInDim SN ![0] hb
    (Host.reduceAdd (mulf x x) (constant S0 .f32 0x00000000#32) hr hn))

/-- A natural below 8192 is its 32-bit word's signed value. -/
theorem toInt_ofNat_small {r : Nat} (hr : r < 8192) : (BitVec.ofNat 32 r).toInt = (r : Int) := by
  rw [BitVec.toInt_ofNat', Int.bmod_def]
  omega

/-- The signed comparison of two small naturals as 32-bit words is their comparison. -/
theorem slt_ofNat_iff {r c : Nat} (hr : r < 8192) (hc : c < 8192) :
    IntOp.cmpi .slt (BitVec.ofNat 32 r) (BitVec.ofNat 32 c) = 1#1 ↔ r < c := by
  show BitVec.ofBool ((BitVec.ofNat 32 r).slt (BitVec.ofNat 32 c)) = 1#1 ↔ r < c
  rw [BitVec.slt_eq_decide, toInt_ofNat_small hr, toInt_ofNat_small hc]
  by_cases h : r < c
  · simp [h]
  · simp [h]

/-- Entry (r, c) of the masked pair matrix, from the array x, a norm for each row, and the
    row words: with s the inner product of rows r and c and sim = s / (n r * n c), the pair
    value is max (1 - sim) 0 where sim > 1/2 and max sim 0 elsewhere; it is kept where the
    two row words agree and r < c, and is the literal zero elsewhere. -/
def term (x : FVec Ideal SX .f32) (n : Fin 8192 → EReal) (ids : IVec SI 32)
    (r c : Fin 8192) : EReal :=
  Scalar.select
    (IntOp.andi (IntOp.cmpi .eq (ids (ValueIdx.ix1 r)) (ids (ValueIdx.ix1 c)))
      (IntOp.cmpi .slt (BitVec.ofNat 32 r.val) (BitVec.ofNat 32 c.val)))
    (Scalar.select
      (FloatOps.cmpf (F := Ideal) (φ := .f32) .ogt
        (FloatOps.divf (F := Ideal) (φ := .f32)
          (∑ k : Fin 1024, x (ValueIdx.ix2 r k) * x (ValueIdx.ix2 c k))
          (FloatOps.mulf (F := Ideal) (φ := .f32) (n r) (n c)))
        (Ideal.ofBits .f32 0x3F000000#32))
      (FloatOps.maximumf (F := Ideal) (φ := .f32)
        (FloatOps.subf (F := Ideal) (φ := .f32) (Ideal.ofBits .f32 0x3F800000#32)
          (FloatOps.divf (F := Ideal) (φ := .f32)
            (∑ k : Fin 1024, x (ValueIdx.ix2 r k) * x (ValueIdx.ix2 c k))
            (FloatOps.mulf (F := Ideal) (φ := .f32) (n r) (n c))))
        (Ideal.ofBits .f32 0x00000000#32))
      (FloatOps.maximumf (F := Ideal) (φ := .f32)
        (FloatOps.divf (F := Ideal) (φ := .f32)
          (∑ k : Fin 1024, x (ValueIdx.ix2 r k) * x (ValueIdx.ix2 c k))
          (FloatOps.mulf (F := Ideal) (φ := .f32) (n r) (n c)))
        (Ideal.ofBits .f32 0x00000000#32)))
    (Ideal.ofBits .f32 0x00000000#32)

/-- Off the strict upper triangle the entry is 0: the select on the mask returns the literal
    zero, whatever the pair value is. -/
theorem term_eq_zero (x : FVec Ideal SX .f32) (n : Fin 8192 → EReal) (ids : IVec SI 32)
    (r c : Fin 8192) (h : ¬ r.val < c.val) : term x n ids r c = 0 := by
  have hs : IntOp.cmpi .slt (BitVec.ofNat 32 r.val) (BitVec.ofNat 32 c.val) = 0#1 :=
    ValueIdx.eq_zero_of_ne_one fun h1 => h ((slt_ofNat_iff r.isLt c.isLt).1 h1)
  have ha : ∀ b : BitVec 1, IntOp.andi b 0#1 = 0#1 := fun b => BitVec.and_zero
  unfold term
  rw [hs, ha, ValueIdx.select_zero, Ideal.ofBits_zero_f32]

/-- The whole double sum. -/
def total (x : FVec Ideal SX .f32) (n : Fin 8192 → EReal) (ids : IVec SI 32) : EReal :=
  ∑ r : Fin 8192, ∑ c : Fin 8192, term x n ids r c

end Cert.Spec

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.KI.EntryValue.lean ====
/-
  What the kernel's windows read: the buffer contents when the kernel region is entered, as
  functions of the two arguments (the array itself, its norm column, the row words as a column),
  and each window's 512-row block at a grid point read off them.
-/
import proofs.«179921_j88399016886706_1_alg».proof.Proof.KI.Setup
import proofs.«179921_j88399016886706_1_alg».proof.Proof.Spec
import proofs.«179921_j88399016886706_1_alg».proof.Proof.LibColumnLayout
import Idealize.ShloMosaic.Lib.StableHlo.Run

set_option maxRecDepth 16384

noncomputable section

namespace Cert.KernelIdeal.EntryValue

open Cert.KernelIdeal Cert.KernelIdeal.Gen Cert.KernelIdeal.Hand
open Idealize.ShloMosaic Idealize.ShloMosaic.TcCoe Idealize.ShloMosaic.Tactic
open Idealize.SL.Sem Idealize.ShloMosaic.StableHlo
open Idealize.ShloMosaic.ValueIdx (ix0 ix1 ix2)

variable (m : (ℓ : Loc nD τ sig) → Buf (Elt Ideal) ℓ)

/-- The array the first two windows read is the first argument: the change of format is the
    identity on extended reals. -/
theorem V_v1 (c : Dev nD) :
    (V m c main_v1 : S8192x1024.Idx → EReal) = m ((c.tc : Thread nD τ).loc main_arg0) := by
  dsimp only [V, V0]
  simp only [hostOps0, hostOps0_1, List.flatten_cons, List.flatten_nil, List.append_nil,
    List.cons_append, List.nil_append]
  after_results
  rfl

/-- The column the middle two windows read is the specification's norm array of the first
    argument. -/
theorem V_v0 (c : Dev nD) :
    (V m c main_v0 : S8192x1.Idx → EReal)
      = Cert.Spec.normArr reducesTo_S8192x1024_S8192_d1 h_S_ bcast_S8192_S8192x1_0
          (m ((c.tc : Thread nD τ).loc main_arg0)) := by
  dsimp only [V, V0]
  simp only [hostOps0, hostOps0_1, List.flatten_cons, List.flatten_nil, List.append_nil,
    List.cons_append, List.nil_append]
  after_results
  rfl

/-- The column the last two input windows read holds, at row r, the second argument's word r. -/
theorem V_v2 (c : Dev nD) (r : Fin 8192) :
    (V m c main_v2 : S8192x1.Idx → BitVec 32) (ix2 r 0) = m ((c.tc : Thread nD τ).loc main_arg1) (ix1 r) := by
  dsimp only [V, V0]
  simp only [hostOps0, hostOps0_1, List.flatten_cons, List.flatten_nil, List.append_nil,
    List.cons_append, List.nil_append]
  after_results
  exact Idealize.ShloMosaic.ColumnLayout.shapeCast_a_a1_apply (m ((c.tc : Thread nD τ).loc main_arg1))
    shapeCasts_S8192_S8192x1 r 0

/-- The block indices of the six input windows over the 16 x 16 grid: windows 0, 2, 4 follow the
    block-row, windows 1, 3, 5 the block-column; the second axis has one block. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = t.val / 16 ∧ win0_4.index t (1 : Fin 2) = 0
    ∧ win0_5.index t (0 : Fin 2) = t.val % 16 ∧ win0_5.index t (1 : Fin 2) = 0 :=
  (by decide +kernel : ∀ t : Fin grid0.N, _)

/-- A grid point is below 256. -/
theorem t_lt (t : Fin cfg0.N) : t.val < 256 := lt_of_lt_of_eq t.isLt N_0

/-- Row p of the block-row's block is row 512 * (t / 16) + p of the array. -/
theorem row_lt (t : Fin cfg0.N) (p : Fin 512) : 512 * (t.val / 16) + p.val < 8192 := by
  have := t_lt t; have := p.isLt; omega
/-- Row q of the block-column's block is row 512 * (t % 16) + q of the array. -/
theorem col_lt (t : Fin cfg0.N) (q : Fin 512) : 512 * (t.val % 16) + q.val < 8192 := by
  have := t_lt t; have := q.isLt; omega

/-- Window 0's block at point t is the block-row's 512 rows of the first argument. -/
theorem blk0 (c : Dev nD) (t : Fin cfg0.N) (p : Fin 512) (k : Fin 1024) :
    iblk m c 0 t (ix2 p k : S512x1024.Idx)
      = m ((c.tc : Thread nD τ).loc main_arg0) (ix2 ⟨512 * (t.val / 16) + p.val, row_lt t p⟩ k) := by
  show V m c main_v1 (((cfg0.win 0).blk t).view.emb (ix2 p k : S512x1024.Idx)) = _
  refine (congrFun (V_v1 m c) _).trans ?_
  refine congrArg (m ((c.tc : Thread nD τ).loc main_arg0)) (funext fun a => Fin.ext ?_)
  obtain ⟨e0, e1, -⟩ := idx_facts t
  match a with
  | ⟨0, _⟩ => show win0_0.index t (0 : Fin 2) * 512 + 1 * p.val = 512 * (t.val / 16) + p.val; omega
  | ⟨1, _⟩ => show win0_0.index t (1 : Fin 2) * 1024 + 1 * k.val = k.val; omega

/-- Window 1's block at point t is the block-column's 512 rows of the first argument. -/
theorem blk1 (c : Dev nD) (t : Fin cfg0.N) (q : Fin 512) (k : Fin 1024) :
    iblk m c 1 t (ix2 q k : S512x1024.Idx)
      = m ((c.tc : Thread nD τ).loc main_arg0) (ix2 ⟨512 * (t.val % 16) + q.val, col_lt t q⟩ k) := by
  show V m c main_v1 (((cfg0.win 1).blk t).view.emb (ix2 q k : S512x1024.Idx)) = _
  refine (congrFun (V_v1 m c) _).trans ?_
  refine congrArg (m ((c.tc : Thread nD τ).loc main_arg0)) (funext fun a => Fin.ext ?_)
  obtain ⟨-, -, e0, e1, -⟩ := idx_facts t
  match a with
  | ⟨0, _⟩ => show win0_1.index t (0 : Fin 2) * 512 + 1 * q.val = 512 * (t.val % 16) + q.val; omega
  | ⟨1, _⟩ => show win0_1.index t (1 : Fin 2) * 1024 + 1 * k.val = k.val; omega

/-- Window 2's block at point t is the block-row's 512 norms. -/
theorem blk2 (c : Dev nD) (t : Fin cfg0.N) (p : Fin 512) :
    iblk m c 2 t (ix2 p (0 : Fin 1) : S512x1.Idx)
      = Cert.Spec.normArr reducesTo_S8192x1024_S8192_d1 h_S_ bcast_S8192_S8192x1_0
          (m ((c.tc : Thread nD τ).loc main_arg0)) (ix2 ⟨512 * (t.val / 16) + p.val, row_lt t p⟩ (0 : Fin 1)) := by
  show V m c main_v0 (((cfg0.win 2).blk t).view.emb (ix2 p (0 : Fin 1) : S512x1.Idx)) = _
  refine (congrFun (V_v0 m c) _).trans ?_
  refine congrArg (Cert.Spec.normArr reducesTo_S8192x1024_S8192_d1 h_S_ bcast_S8192_S8192x1_0
    (m ((c.tc : Thread nD τ).loc main_arg0))) (funext fun a => Fin.ext ?_)
  obtain ⟨-, -, -, -, e0, e1, -⟩ := idx_facts t
  match a with
  | ⟨0, _⟩ => show win0_2.index t (0 : Fin 2) * 512 + 1 * p.val = 512 * (t.val / 16) + p.val; omega
  | ⟨1, _⟩ => show win0_2.index t (1 : Fin 2) * 1 + 1 * 0 = 0; omega

/-- Window 3's block at point t is the block-column's 512 norms. -/
theorem blk3 (c : Dev nD) (t : Fin cfg0.N) (q : Fin 512) :
    iblk m c 3 t (ix2 q (0 : Fin 1) : S512x1.Idx)
      = Cert.Spec.normArr reducesTo_S8192x1024_S8192_d1 h_S_ bcast_S8192_S8192x1_0
          (m ((c.tc : Thread nD τ).loc main_arg0)) (ix2 ⟨512 * (t.val % 16) + q.val, col_lt t q⟩ (0 : Fin 1)) := by
  show V m c main_v0 (((cfg0.win 3).blk t).view.emb (ix2 q (0 : Fin 1) : S512x1.Idx)) = _
  refine (congrFun (V_v0 m c) _).trans ?_
  refine congrArg (Cert.Spec.normArr reducesTo_S8192x1024_S8192_d1 h_S_ bcast_S8192_S8192x1_0
    (m ((c.tc : Thread nD τ).loc main_arg0))) (funext fun a => Fin.ext ?_)
  obtain ⟨-, -, -, -, -, -, e0, e1, -⟩ := idx_facts t
  match a with
  | ⟨0, _⟩ => show win0_3.index t (0 : Fin 2) * 512 + 1 * q.val = 512 * (t.val % 16) + q.val; omega
  | ⟨1, _⟩ => show win0_3.index t (1 : Fin 2) * 1 + 1 * 0 = 0; omega

/-- Window 4's block at point t is the block-row's 512 row words. -/
theorem blk4 (c : Dev nD) (t : Fin cfg0.N) (p : Fin 512) :
    iblk m c 4 t (ix2 p (0 : Fin 1) : S512x1.Idx)
      = m ((c.tc : Thread nD τ).loc main_arg1) (ix1 ⟨512 * (t.val / 16) + p.val, row_lt t p⟩) := by
  have e : ((cfg0.win 4).blk t).view.emb (ix2 p (0 : Fin 1) : S512x1.Idx)
      = (ix2 ⟨512 * (t.val / 16) + p.val, row_lt t p⟩ (0 : Fin 1) : S8192x1.Idx) := by
    funext a; apply Fin.ext
    obtain ⟨-, -, -, -, -, -, -, -, e0, e1, -⟩ := idx_facts t
    match a with
    | ⟨0, _⟩ => show win0_4.index t (0 : Fin 2) * 512 + 1 * p.val = 512 * (t.val / 16) + p.val; omega
    | ⟨1, _⟩ => show win0_4.index t (1 : Fin 2) * 1 + 1 * 0 = 0; omega
  show V m c main_v2 (((cfg0.win 4).blk t).view.emb (ix2 p (0 : Fin 1) : S512x1.Idx)) = _
  exact (congrArg (V m c main_v2 : S8192x1.Idx → BitVec 32) e).trans (V_v2 m c _)

/-- Window 5's block at point t is the block-column's 512 row words. -/
theorem blk5 (c : Dev nD) (t : Fin cfg0.N) (q : Fin 512) :
    iblk m c 5 t (ix2 q (0 : Fin 1) : S512x1.Idx)
      = m ((c.tc : Thread nD τ).loc main_arg1) (ix1 ⟨512 * (t.val % 16) + q.val, col_lt t q⟩) := by
  have e : ((cfg0.win 5).blk t).view.emb (ix2 q (0 : Fin 1) : S512x1.Idx)
      = (ix2 ⟨512 * (t.val % 16) + q.val, col_lt t q⟩ (0 : Fin 1) : S8192x1.Idx) := by
    funext a; apply Fin.ext
    obtain ⟨-, -, -, -, -, -, -, -, -, -, e0, e1⟩ := idx_facts t
    match a with
    | ⟨0, _⟩ => show win0_5.index t (0 : Fin 2) * 512 + 1 * q.val = 512 * (t.val % 16) + q.val; omega
    | ⟨1, _⟩ => show win0_5.index t (1 : Fin 2) * 1 + 1 * 0 = 0; omega
  show V m c main_v2 (((cfg0.win 5).blk t).view.emb (ix2 q (0 : Fin 1) : S512x1.Idx)) = _
  exact (congrArg (V m c main_v2 : S8192x1.Idx → BitVec 32) e).trans (V_v2 m c _)

end Cert.KernelIdeal.EntryValue

end
-- ==== Proof.LibUpperBlocks.lean ====
import Mathlib.Data.EReal.Basic
import Mathlib.Algebra.BigOperators.Fin
import Mathlib.Tactic

/-!
# Regrouping an upper-triangular double sum into block sums

A double sum over `Fin 8192 × Fin 8192` of a function that vanishes off the strict upper
triangle equals the block sums (16 × 16 blocks of size 512 × 512) added one after the other in
row-major block order, where the blocks strictly below the block diagonal are skipped.
Only commutativity and associativity of addition are used, so no finiteness is needed.
-/

open Finset

namespace Cert.Blocks

/-- the sum of f over block (i,j): rows 512*i .. 512*i+511, columns 512*j .. 512*j+511 -/
noncomputable def blockSum (f : Fin 8192 → Fin 8192 → EReal) (i j : Fin 16) : EReal :=
  ∑ p : Fin 512, ∑ q : Fin 512, f ⟨512 * i.val + p.val, by omega⟩ ⟨512 * j.val + q.val, by omega⟩

/-- the accumulator after the first n grid points (point t is block (t / 16, t % 16)); a block
below the block diagonal adds nothing -/
noncomputable def accum (f : Fin 8192 → Fin 8192 → EReal) : (n : ℕ) → n ≤ 256 → EReal
  | 0, _ => 0
  | n + 1, h => if n / 16 ≤ n % 16 then accum f n (by omega) + blockSum f ⟨n / 16, by omega⟩ ⟨n % 16, by omega⟩ else accum f n (by omega)

/-- an index below 8192 is a block index below 16 together with an offset below 512 -/
def splitEquiv : Fin 16 × Fin 512 ≃ Fin 8192 where
  toFun x := ⟨512 * x.1.val + x.2.val, by omega⟩
  invFun r := (⟨r.val / 512, by omega⟩, ⟨r.val % 512, by omega⟩)
  left_inv x := by
    rcases x with ⟨i, p⟩
    ext <;> simp <;> omega
  right_inv r := by
    ext; simp; omega

/-- a grid point below 256 is a block row below 16 together with a block column below 16 -/
def gridEquiv : Fin 16 × Fin 16 ≃ Fin 256 where
  toFun x := ⟨16 * x.1.val + x.2.val, by omega⟩
  invFun t := (⟨t.val / 16, by omega⟩, ⟨t.val % 16, by omega⟩)
  left_inv x := by
    rcases x with ⟨i, j⟩
    ext <;> simp <;> omega
  right_inv t := by
    ext; simp; omega

/-- the whole double sum is the sum of all 256 block sums -/
theorem total_eq_sum_blocks (f : Fin 8192 → Fin 8192 → EReal) :
    ∑ r : Fin 8192, ∑ c : Fin 8192, f r c = ∑ i : Fin 16, ∑ j : Fin 16, blockSum f i j := by
  have hrow : ∀ g : Fin 8192 → EReal,
      ∑ r : Fin 8192, g r = ∑ i : Fin 16, ∑ p : Fin 512, g (splitEquiv (i, p)) := by
    intro g
    rw [← Equiv.sum_comp splitEquiv g, Fintype.sum_prod_type]
  rw [hrow]
  refine Finset.sum_congr rfl fun i _ => ?_
  have : ∀ p : Fin 512, ∑ c : Fin 8192, f (splitEquiv (i, p)) c
      = ∑ j : Fin 16, ∑ q : Fin 512, f (splitEquiv (i, p)) (splitEquiv (j, q)) :=
    fun p => hrow _
  simp_rw [this]
  rw [Finset.sum_comm]
  rfl

/-- a block strictly below the block diagonal lies outside the strict upper triangle -/
theorem blockSum_eq_zero (f : Fin 8192 → Fin 8192 → EReal)
    (hf : ∀ r c : Fin 8192, ¬ r.val < c.val → f r c = 0) (i j : Fin 16) (hji : j.val < i.val) :
    blockSum f i j = 0 := by
  unfold blockSum
  refine Finset.sum_eq_zero fun p _ => Finset.sum_eq_zero fun q _ => hf _ _ ?_
  simp only
  omega

/-- the accumulator starts at zero -/
theorem accum_zero (f : Fin 8192 → Fin 8192 → EReal) (h : 0 ≤ 256) : accum f 0 h = 0 := rfl

/-- one more grid point: the block sum of block (n / 16, n % 16) is added unless that block lies
below the block diagonal -/
theorem accum_succ (f : Fin 8192 → Fin 8192 → EReal) (n : ℕ) (h : n + 1 ≤ 256) :
    accum f (n + 1) h =
      if n / 16 ≤ n % 16 then
        accum f n (by omega) + blockSum f ⟨n / 16, by omega⟩ ⟨n % 16, by omega⟩
      else accum f n (by omega) := rfl

/-- what grid point t adds to the accumulator (nothing for a block below the block diagonal, and
nothing past the last grid point) -/
noncomputable def gridTerm (f : Fin 8192 → Fin 8192 → EReal) (t : ℕ) : EReal :=
  if h : t < 256 then
    (if t / 16 ≤ t % 16 then blockSum f ⟨t / 16, by omega⟩ ⟨t % 16, by omega⟩ else 0)
  else 0

/-- the accumulator after n grid points is the sum of the first n grid terms -/
theorem accum_eq_sum_range (f : Fin 8192 → Fin 8192 → EReal) :
    ∀ (n : ℕ) (h : n ≤ 256), accum f n h = ∑ t ∈ Finset.range n, gridTerm f t
  | 0, _ => by simp [accum]
  | n + 1, h => by
    have hn : n < 256 := by omega
    rw [Finset.sum_range_succ, ← accum_eq_sum_range f n (by omega), accum_succ]
    by_cases hc : n / 16 ≤ n % 16
    · simp [gridTerm, hn, hc]
    · simp [gridTerm, hn, hc]

/-- at grid point 16 * i + j the grid term is the block sum of block (i, j): for a block below the
block diagonal both sides vanish -/
theorem gridTerm_eq_blockSum (f : Fin 8192 → Fin 8192 → EReal)
    (hf : ∀ r c : Fin 8192, ¬ r.val < c.val → f r c = 0) (i j : Fin 16) :
    gridTerm f (16 * i.val + j.val) = blockSum f i j := by
  have key : ∀ (a b : ℕ) (ha : a < 16) (hb : b < 16), a = i.val → b = j.val →
      blockSum f ⟨a, ha⟩ ⟨b, hb⟩ = blockSum f i j := by
    intro a b ha hb h1 h2
    subst h1 h2
    rfl
  have hlt : 16 * i.val + j.val < 256 := by omega
  have h1 : (16 * i.val + j.val) / 16 = i.val := by omega
  have h2 : (16 * i.val + j.val) % 16 = j.val := by omega
  unfold gridTerm
  rw [dif_pos hlt]
  by_cases hij : i.val ≤ j.val
  · rw [if_pos (by omega)]
    exact key _ _ _ _ h1 h2
  · rw [if_neg (by omega)]
    exact (blockSum_eq_zero f hf i j (by omega)).symm

/-- THE LAW: if f vanishes wherever ¬ r < c, the accumulator after all 256 points is the whole
double sum -/
theorem accum_eq_total (f : Fin 8192 → Fin 8192 → EReal)
    (hf : ∀ r c : Fin 8192, ¬ r.val < c.val → f r c = 0) :
    accum f 256 le_rfl = ∑ r : Fin 8192, ∑ c : Fin 8192, f r c := by
  rw [accum_eq_sum_range, total_eq_sum_blocks, Finset.sum_range,
    ← Equiv.sum_comp gridEquiv (fun t : Fin 256 => gridTerm f t.val), Fintype.sum_prod_type]
  refine Finset.sum_congr rfl fun i _ => Finset.sum_congr rfl fun j _ => ?_
  exact gridTerm_eq_blockSum f hf i j

end Cert.Blocks
-- ==== Proof.LibGramMatmul.lean ====
/-
  The matrix product against a transposed right operand on the extended reals, read at one entry.

  A matrix unit's product of an `m × k` array by an `n × k` array contracted on the LAST axis of both (rows against
  rows: `A Bᵀ`; with `B = A` the Gram matrix of A's rows), accumulated into the zero array, holds at entry `(a, b)` the
  sum over the contracted position `c` of `A[a,c] · B[b,c]`. The contraction's index set has one axis; it is re-indexed
  by its one coordinate, and the operands' indices at output entry `(a, b)` and contraction position `c` are named by
  their coordinates, axis by axis: each operand's row reads its own output coordinate, each operand's column reads `c`.
-/
import Idealize.ShloMosaic.PureOps.Ideal.Laws
import Idealize.ShloMosaic.Lib.ValueIdx

noncomputable section

open scoped BigOperators

namespace Idealize.ShloMosaic.GramMatmul

open Idealize.ShloMosaic Idealize.ShloMosaic.ValueIdx

variable {m k n : Nat}

/-- The left operand's row coordinate is the output's row coordinate. -/
theorem lhs_row (i : (⟨2, ![m, n]⟩ : Shape).Idx) (q : (DotDims.transposedRhs m k n).contr.Idx) :
    ((DotDims.transposedRhs m k n).lhsIdx i q 0).val = (i 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column coordinate is the contraction position. -/
theorem lhs_col (i : (⟨2, ![m, n]⟩ : Shape).Idx) (q : (DotDims.transposedRhs m k n).contr.Idx) :
    ((DotDims.transposedRhs m k n).lhsIdx i q 1).val = (q ⟨0, (Nat.one_pos : 0 < 1)⟩).val :=
  (DotDims.transposedRhs m k n).lhsIdx_val_of_single rfl i q

/-- The right operand's row coordinate is the output's column coordinate. -/
theorem rhs_row (i : (⟨2, ![m, n]⟩ : Shape).Idx) (q : (DotDims.transposedRhs m k n).contr.Idx) :
    ((DotDims.transposedRhs m k n).rhsIdx i q 0).val = (i 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column coordinate is the contraction position. -/
theorem rhs_col (i : (⟨2, ![m, n]⟩ : Shape).Idx) (q : (DotDims.transposedRhs m k n).contr.Idx) :
    ((DotDims.transposedRhs m k n).rhsIdx i q 1).val = (q ⟨0, (Nat.one_pos : 0 < 1)⟩).val :=
  (DotDims.transposedRhs m k n).rhsIdx_val_of_single rfl i q

/-- **The product against the transposed right operand, into the zero accumulator, at an entry**:
    `∑ c, A[a,c] · B[b,c]`, at the ideal values, whatever the operands' formats and the precision key. -/
theorem matmul_zero_apply {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c :=
    funext fun ax => Fin.ext (by
      match ax with
      | ⟨0, _⟩ => exact lhs_row _ _
      | ⟨1, _⟩ => exact (lhs_col _ _).trans hc)
  have er : (DotDims.transposedRhs m k n).rhsIdx (ix2 a b) ((contrEquiv1 (DotDims.transposedRhs m k n) k rfl rfl).symm c) = ix2 b c :=
    funext fun ax => Fin.ext (by
      match ax with
      | ⟨0, _⟩ => exact rhs_row _ _
      | ⟨1, _⟩ => exact (rhs_col _ _).trans hc)
  rw [el, er]

end Idealize.ShloMosaic.GramMatmul

end
-- ==== Proof.LibRowLayout.lean ====
/-
  Row layouts and column reductions read at an index.

  A reduction along the FIRST axis of a rank-2 array with `keepdims` leaves a row: the reduced vector `[b]` is cast to
  `[1, b]` and broadcast back to `[a, b]`, so entry `(p, c)` of the broadcast is entry `c` of the reduced vector. The
  reduction itself, over the first axis of an `[a, b]` array and read at column `q`, is the sum over that column's
  entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.RowLayout

open Idealize.ShloMosaic Idealize.ShloMosaic.ValueIdx

variable {α : Type}

/-- A reduced vector `[b]` kept as the row `[1, b]` and broadcast back along the columns reads, at `(p, c)`, the
    vector's entry `c`, whatever the row `p`. -/
theorem keepdimsRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A float sum over the first axis of an `[a, b]` array from the zero word, read at column `q` at the extended reals: the
    sum of the column's entries. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec FTy.f32.bits) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

end Idealize.ShloMosaic.RowLayout

end
-- ==== Proof.KI.PayValue.lean ====
import proofs.«179921_j88399016886706_1_alg».proof.Proof.Gen.KernelIdeal.Skeleton
import proofs.«179921_j88399016886706_1_alg».proof.Proof.LibUpperBlocks
import proofs.«179921_j88399016886706_1_alg».proof.Proof.Spec
import proofs.«179921_j88399016886706_1_alg».proof.Proof.LibGramMatmul
import proofs.«179921_j88399016886706_1_alg».proof.Proof.LibColumnLayout
import proofs.«179921_j88399016886706_1_alg».proof.Proof.LibRowLayout

/-!
# The body's arithmetic read at an index

At the extended reals, the four pure terms of the body are read entry by entry: the 512 x 512 pair
values, the 512 x 512 mask, and the masked sum of all entries added to the old accumulator entry.
Together they say that one grid point adds to the accumulator the block sum of the masked pair matrix.
-/

noncomputable section

namespace Cert.KernelIdeal.PayValue

open Idealize.ShloMosaic Idealize.ShloMosaic.ValueIdx Cert.KernelIdeal

/-- A column [512, 1] transposed to the row [1, 512] reads, at (u, q), the column's entry of row q. -/
theorem transpose_col_apply {α : Type} (v : S512x1.Idx → α) (h : S512x1.Transposes [1, 0] S1x512)
    (u : Fin 1) (q : Fin 512) :
    transpose S1x512 [1, 0] v h (ix2 u q) = v (ix2 q (0 : Fin 1)) := by
  refine transpose_apply [1, 0] v h (ix2 u q) (ix2 q (0 : Fin 1)) fun b => ?_
  match b with
  | ⟨0, _⟩ =>
    show (0 : Fin 1).val = u.val
    omega
  | ⟨1, _⟩ => rfl

/-- The kernel's contraction record is the product against the transposed right operand. -/
theorem dot_eq : dot_S512x1024_S512x1024_S512x512_1_1_0_0_n_n = DotDims.transposedRhs 512 1024 512 := rfl

/-- The pair values at entry (p, q): with s the inner product of row p of the first block and row q of
the second, and sim = s / (n p * n' q), the value max (1 - sim) 0 where sim > 1/2 and max sim 0 elsewhere. -/
theorem pay4_apply (xi xj : Vec Ideal S512x1024 .bf16) (ni nj : Vec Ideal S512x1 .f32) (p q : Fin 512) :
    Gen.k0_pay4 (F := Ideal) xi xj ni nj (ix2 p q) =
      Scalar.select
        (FloatOps.cmpf (F := Ideal) (φ := .f32) .ogt
          (FloatOps.divf (F := Ideal) (φ := .f32) (∑ k : Fin 1024, xi (ix2 p k) * xj (ix2 q k)) (FloatOps.mulf (F := Ideal) (φ := .f32) (ni (ix2 p 0)) (nj (ix2 q 0))))
          (Ideal.ofBits .f32 0x3F000000#32))
        (FloatOps.maximumf (F := Ideal) (φ := .f32)
          (FloatOps.subf (F := Ideal) (φ := .f32) (Ideal.ofBits .f32 0x3F800000#32)
            (FloatOps.divf (F := Ideal) (φ := .f32) (∑ k : Fin 1024, xi (ix2 p k) * xj (ix2 q k)) (FloatOps.mulf (F := Ideal) (φ := .f32) (ni (ix2 p 0)) (nj (ix2 q 0)))))
          (Ideal.ofBits .f32 0x00000000#32))
        (FloatOps.maximumf (F := Ideal) (φ := .f32)
          (FloatOps.divf (F := Ideal) (φ := .f32) (∑ k : Fin 1024, xi (ix2 p k) * xj (ix2 q k)) (FloatOps.mulf (F := Ideal) (φ := .f32) (ni (ix2 p 0)) (nj (ix2 q 0))))
          (Ideal.ofBits .f32 0x00000000#32)) := by
  have hm : FloatOps.matmul (F := Ideal) (φ₁ := .bf16) (φ₂ := .bf16)
      dot_S512x1024_S512x1024_S512x512_1_1_0_0_n_n none
      (shapeCast S512x1024 (xi : FVec Ideal S512x1024 .bf16) Gen.shapeCasts_S512x1024_S512x1024)
      (shapeCast S512x1024 (xj : FVec Ideal S512x1024 .bf16) Gen.shapeCasts_S512x1024_S512x1024)
      (constant (F := Ideal) S512x512 .f32 0x00000000#32) (ix2 p q)
        = ∑ k : Fin 1024, xi (ix2 p k) * xj (ix2 q k) := by
    rw [shapeCast_self, shapeCast_self, dot_eq]
    exact GramMatmul.matmul_zero_apply (φ₁ := .bf16) (φ₂ := .bf16) none xi xj p q
  have hi : broadcastTo S512x512 (shapeCast S512x1 ni Gen.shapeCasts_S512x1_S512x1)
      Gen.broadcasts_S512x1_S512x512 (ix2 p q) = ni (ix2 p 0) := by
    rw [shapeCast_self]
    exact ColumnLayout.broadcastTo_a1_ab_apply ni _ p q
  have hj : broadcastTo S512x512
      (transpose S1x512 [1, 0] (shapeCast S512x1 nj Gen.shapeCasts_S512x1_S512x1)
        Gen.transposes_S512x1_p1_0_S1x512)
      Gen.broadcasts_S1x512_S512x512 (ix2 p q) = nj (ix2 q 0) := by
    rw [shapeCast_self]
    exact (broadcastTo_1b_ab_apply _ _ p q).trans (transpose_col_apply nj _ 0 q)
  unfold Gen.k0_pay4
  dsimp only [select, cmpf, maximumf, subf, divf, mulf, broadcast, matmul]
  rw [hm, hi, hj]
  rfl

/-- 32-bit words: the word of i times the word of 512 plus the word of p is the word of 512 * i + p. -/
theorem word_eq (i p : ℕ) :
    BitVec.ofNat 32 i * 512#32 + BitVec.ofNat 32 p = BitVec.ofNat 32 (512 * i + p) := by
  rw [Nat.mul_comm 512 i, BitVec.ofNat_add, BitVec.ofNat_mul]

/-- The mask at entry (p, q): the two row words agree, and the global row index a0 * 512 + p is below the
global column index a1 * 512 + q as signed 32-bit words. -/
theorem pay3_apply (a0 a1 : BitVec 32) (ci cj : Vec Ideal S512x1 .i32) (p q : Fin 512) :
    Gen.k0_pay3 (F := Ideal) a0 a1 ci cj (ix2 p q) =
      IntOp.andi (IntOp.cmpi .eq (ci (ix2 p 0)) (cj (ix2 q 0)))
        (IntOp.cmpi .slt (a0 * 512#32 + BitVec.ofNat 32 p.val) (a1 * 512#32 + BitVec.ofNat 32 q.val)) := by
  have hi : broadcastTo S512x512 (shapeCast S512x1 (ci : IVec S512x1 32) Gen.shapeCasts_S512x1_S512x1)
      Gen.broadcasts_S512x1_S512x512 (ix2 p q) = ci (ix2 p 0) := by
    rw [shapeCast_self]
    exact ColumnLayout.broadcastTo_a1_ab_apply ci _ p q
  have hj : broadcastTo S512x512
      (transpose S1x512 [1, 0] (shapeCast S512x1 (cj : IVec S512x1 32) Gen.shapeCasts_S512x1_S512x1)
        Gen.transposes_S512x1_p1_0_S1x512)
      Gen.broadcasts_S1x512_S512x512 (ix2 p q) = cj (ix2 q 0) := by
    rw [shapeCast_self]
    exact (broadcastTo_1b_ab_apply _ _ p q).trans (transpose_col_apply cj _ 0 q)
  have h0 : iota .tc S512x512 32 [0] Gen.iota_S512x512_d0_w32 (ix2 p q) = BitVec.ofNat 32 p.val :=
    iota_single_apply .tc S512x512 32 0 _ (ix2 p q)
  have h1 : iota .tc S512x512 32 [1] Gen.iota_S512x512_d1_w32 (ix2 p q) = BitVec.ofNat 32 q.val :=
    iota_single_apply .tc S512x512 32 1 _ (ix2 p q)
  unfold Gen.k0_pay3
  dsimp only [andi, cmpi, addi, broadcast]
  rw [hi, hj, h0, h1]
  rfl

/-- The masked sum: entry (0, 0) of the new accumulator is the old entry plus the sum over all 512 x 512
entries of the pair value where the mask holds and of the literal zero elsewhere. -/
theorem pay2_apply (v41 : IVec S512x512 1) (v50 : FVec Ideal S512x512 .f32) (v57 : Vec Ideal S1x1 .f32) :
    Gen.k0_pay2 (F := Ideal) v41 v50 v57 (ix2 0 0) =
      v57 (ix2 0 0) + ∑ p : Fin 512, ∑ q : Fin 512,
        Scalar.select (v41 (ix2 p q)) (v50 (ix2 p q)) (Ideal.ofBits .f32 0x00000000#32) := by
  unfold Gen.k0_pay2
  dsimp only
  rw [shapeCast_self, addf_apply]
  refine congrArg (v57 (ix2 0 0) + ·) ?_
  refine (ColumnLayout.shapeCast_a_a1_apply _ _ 0 0).trans ?_
  refine (RowLayout.colSum_apply _ _ _ _ 0).trans ?_
  refine Finset.sum_congr rfl fun p _ => ?_
  refine (ColumnLayout.shapeCast_a_a1_apply _ _ p 0).trans ?_
  refine (ColumnLayout.rowSum_apply _ _ _ _ p).trans ?_
  rfl

/-- One grid point: when the loaded blocks are blocks i and j of the array, of the norms and of the row
words, the body's new accumulator entry is the old one plus the block sum of the masked pair matrix over
block (i, j). -/
theorem pay_block (i j : Fin 16)
    (xi xj : Vec Ideal S512x1024 .bf16) (ni nj : Vec Ideal S512x1 .f32)
    (ci cj : Vec Ideal S512x1 .i32) (v57 : Vec Ideal S1x1 .f32)
    (x : FVec Ideal Cert.Spec.SX .f32) (n : Fin 8192 → EReal) (ids : IVec Cert.Spec.SI 32)
    (hxi : ∀ (p : Fin 512) (k : Fin 1024), xi (ix2 p k) = x (ix2 ⟨512 * i.val + p.val, by omega⟩ k))
    (hxj : ∀ (q : Fin 512) (k : Fin 1024), xj (ix2 q k) = x (ix2 ⟨512 * j.val + q.val, by omega⟩ k))
    (hni : ∀ p : Fin 512, ni (ix2 p 0) = n ⟨512 * i.val + p.val, by omega⟩)
    (hnj : ∀ q : Fin 512, nj (ix2 q 0) = n ⟨512 * j.val + q.val, by omega⟩)
    (hci : ∀ p : Fin 512, ci (ix2 p 0) = ids (ix1 ⟨512 * i.val + p.val, by omega⟩))
    (hcj : ∀ q : Fin 512, cj (ix2 q 0) = ids (ix1 ⟨512 * j.val + q.val, by omega⟩)) :
    Gen.k0_pay2 (F := Ideal)
        (Gen.k0_pay3 (F := Ideal) (BitVec.ofNat 32 i.val) (BitVec.ofNat 32 j.val) ci cj)
        (Gen.k0_pay4 (F := Ideal) xi xj ni nj) v57 (ix2 0 0)
      = v57 (ix2 0 0) + Cert.Blocks.blockSum (Cert.Spec.term x n ids) i j := by
  rw [pay2_apply]
  refine congrArg (v57 (ix2 0 0) + ·) ?_
  unfold Cert.Blocks.blockSum
  refine Finset.sum_congr rfl fun p _ => Finset.sum_congr rfl fun q _ => ?_
  rw [pay3_apply, pay4_apply, word_eq, word_eq]
  unfold Cert.Spec.term
  simp only [hxi, hxj, hni, hnj, hci, hcj]

end Cert.KernelIdeal.PayValue
-- ==== Proof.KI.PieceValue.lean ====
import proofs.«179921_j88399016886706_1_alg».proof.Proof.KI.Data
import Idealize.ShloMosaic.Lib.WritesUnit
import Idealize.ShloMosaic.Lib.ValueIdx
import Idealize.ShloMosaic.Lib.Pipeline.Value

/-!
# What each control case of the body leaves, read as functions

The pieces the body's stores leave in the accumulator and in the output's staging buffer are read back:
a store into the first cell changes cell (0, 0) only, a store of the whole buffer leaves its payload. So
after the body the accumulator holds, in cell (0, 0), the accumulate payload at (0, 0) (over zeros when
the point resets, over the old contents when it does not), and elsewhere zeros or the old contents; the
output's buffer holds what the accumulator holds.
-/

set_option maxRecDepth 16384

noncomputable section

namespace Cert.KernelIdeal.PieceValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem

variable {F : FTy → Type} [FloatOps F]

/-- The zero offsets, however spelt. -/
theorem hz : (![0, 0] : Fin 2 → Nat) = fun _ => 0 := funext fun a => by fin_cases a <;> rfl

/-- The one-cell shape has one index. -/
theorem idx_cell (j : S1x1.Idx) : j = ix2 0 0 := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- A load of the first cell of an 8 x 128 buffer reads the contents at (0, 0). -/
theorem ld_cell (X : S8x128.Idx → Elt F .f32)
    (inb : ∀ a, (![0, 0] : Fin 2 → Nat) a + (![1, 1] : Fin 2 → Nat) a ≤ S8x128.size a) :
    View.ld (Val := Elt F) X (Rect.unit (s := S8x128) ![0, 0] ![1, 1] inb) = fun _ => X (ix2 0 0) := by
  funext j
  show X ((Rect.unit (s := S8x128) ![0, 0] ![1, 1] inb).idx j) = X (ix2 0 0)
  refine congrArg X (funext fun a => Fin.ext ?_)
  rw [idx_cell j]
  match a with
  | ⟨0, _⟩ => rfl
  | ⟨1, _⟩ => rfl

/-- Newest wins for a store into the first cell: cell (0, 0) reads the stored value, every other cell
what the earlier stores left. -/
theorem read_writes_cons_cell (v : View sig .tc .vmem S8x128 .f32) (f : v.ty.Contents (Elt F))
    (inb : ∀ a, (![0, 0] : Fin 2 → Nat) a + (![1, 1] : Fin 2 → Nat) a ≤ S8x128.size a)
    (w : (Rect.unit (s := S8x128) ![0, 0] ![1, 1] inb).shape.Idx → Elt F .f32) (L : List (View.Piece (Elt F) S8x128 .f32)) :
    v.read (Elt F) (v.writes (Elt F) f ((⟨Rect.unit (s := S8x128) ![0, 0] ![1, 1] inb, w⟩ : View.Piece (Elt F) S8x128 .f32) :: L))
      = fun y => if y = ix2 0 0 then w (ix2 (0 : Fin 1) (0 : Fin 1)) else v.read (Elt F) (v.writes (Elt F) f L) y := by
  funext y
  by_cases hy : y = ix2 0 0
  · subst hy
    rw [if_pos rfl]
    exact View.read_writes_cons_unit_of_mem v f inb w L (ix2 0 0) (ix2 (0 : Fin 1) (0 : Fin 1)) rfl
      (fun a => by match a with | ⟨0, _⟩ => rfl | ⟨1, _⟩ => rfl)
  · rw [if_neg hy]
    by_cases h0 : (y 0).val = 0
    · have h1 : (y 1).val ≠ 0 := fun h1 => hy (funext fun a => by
        match a with
        | ⟨0, _⟩ => exact Fin.ext h0
        | ⟨1, _⟩ => exact Fin.ext h1)
      exact View.read_writes_cons_unit_of_not_mem v f inb w L y rfl 1
        (Or.inr (by show 0 + 1 ≤ (y 1).val; omega))
    · exact View.read_writes_cons_unit_of_not_mem v f inb w L y rfl 0
        (Or.inr (by show 0 + 1 ≤ (y 0).val; omega))

/-- One store of the whole buffer leaves its payload, whatever the buffer held. -/
theorem read_writes_whole_store (v : View sig .tc .vmem S8x128 .f32) (f : v.ty.Contents (Elt F))
    (inb : ∀ a, (![0, 0] : Fin 2 → Nat) a + (![8, 128] : Fin 2 → Nat) a ≤ S8x128.size a)
    (w : (Rect.unit (s := S8x128) ![0, 0] ![8, 128] inb).shape.Idx → Elt F .f32) :
    v.read (Elt F) (v.writes (Elt F) f [(⟨Rect.unit (s := S8x128) ![0, 0] ![8, 128] inb, w⟩ : View.Piece (Elt F) S8x128 .f32)])
      = w :=
  funext fun y => View.read_writes_cons_unit_of_mem v f inb w [] y y rfl
    (fun a => by match a with | ⟨0, _⟩ => exact (Nat.zero_add _).symm | ⟨1, _⟩ => exact (Nat.zero_add _).symm)

/-- A load of the first cell after one store of the whole buffer reads the payload at (0, 0). -/
theorem readCov_cell_whole_store (v : View sig .tc .vmem S8x128 .f32)
    (inb : ∀ a, (![0, 0] : Fin 2 → Nat) a + (![8, 128] : Fin 2 → Nat) a ≤ S8x128.size a)
    (inb' : ∀ a, (![0, 0] : Fin 2 → Nat) a + (![1, 1] : Fin 2 → Nat) a ≤ S8x128.size a)
    (w : (Rect.unit (s := S8x128) ![0, 0] ![8, 128] inb).shape.Idx → Elt F .f32) :
    v.readCov [(⟨Rect.unit (s := S8x128) ![0, 0] ![8, 128] inb, w⟩ : View.Piece (Elt F) S8x128 .f32)]
        (Rect.unit (s := S8x128) ![0, 0] ![1, 1] inb').toLoadRect
      = fun _ => w (ix2 (0 : Fin 8) (0 : Fin 128)) := by
  unfold View.readCov
  rw [View.readAt_eq_ld, read_writes_whole_store v v.junk inb w]
  exact ld_cell w inb'

/-- A load of the whole buffer after a store of the whole buffer and then a store into the first cell:
cell (0, 0) reads the cell's value, every other cell the whole store's payload. -/
theorem readCov_whole_cell_whole (v : View sig .tc .vmem S8x128 .f32)
    (inb : ∀ a, (![0, 0] : Fin 2 → Nat) a + (![8, 128] : Fin 2 → Nat) a ≤ S8x128.size a)
    (inb' : ∀ a, (![0, 0] : Fin 2 → Nat) a + (![1, 1] : Fin 2 → Nat) a ≤ S8x128.size a)
    (inb'' : ∀ a, (![0, 0] : Fin 2 → Nat) a + (![8, 128] : Fin 2 → Nat) a ≤ S8x128.size a)
    (w : (Rect.unit (s := S8x128) ![0, 0] ![8, 128] inb).shape.Idx → Elt F .f32)
    (u : (Rect.unit (s := S8x128) ![0, 0] ![1, 1] inb').shape.Idx → Elt F .f32) :
    v.readCov [(⟨Rect.unit (s := S8x128) ![0, 0] ![1, 1] inb', u⟩ : View.Piece (Elt F) S8x128 .f32),
          (⟨Rect.unit (s := S8x128) ![0, 0] ![8, 128] inb, w⟩ : View.Piece (Elt F) S8x128 .f32)]
        (Rect.unit (s := S8x128) ![0, 0] ![8, 128] inb'').toLoadRect
      = fun y => if y = ix2 0 0 then u (ix2 (0 : Fin 1) (0 : Fin 1)) else w y := by
  unfold View.readCov
  rw [View.readAt_eq_ld]
  refine (View.ld_unit_zero (S := S8x128) hz inb'' _).trans ?_
  refine (read_writes_cons_cell v v.junk inb' u _).trans ?_
  rw [read_writes_whole_store v v.junk inb w]

/-- Accumulation without reset: the accumulator ends with its first cell at the old first cell plus the
block's masked sum, and every other cell as it was. -/
theorem scratchB (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : condAcc i) (x0 x1 : Vec F S512x1024 .bf16) (x2 x3 : Vec F S512x1 .f32) (x4 x5 : Vec F S512x1 .i32) (xs : Vec F S8x128 .f32) :
    arg9.view.read (Elt F) (arg9.view.writes (Elt F) (harg9.unread xs)
        (kernelRunB c i arg2 harg2 arg3 harg3 arg4 harg4 arg5 harg5 arg6 harg6 arg7 harg7 arg8 harg8 arg9 harg9 hc0 hc1 x0 x1 x2 x3 x4 x5 xs).2.1)
      = fun y => if y = ix2 0 0 then
          k0_pay2 (k0_pay3 (BitVec.ofNat 32 (i 0).val) (BitVec.ofNat 32 (i 1).val) x4 x5) (k0_pay4 x0 x1 x2 x3) (fun _ => xs (ix2 0 0)) (ix2 0 0)
        else xs y := by
  unfold kernelRunB
  dsimp only
  sl_unfold_words
  simp only [View.readAt_eq_ld, harg2.read_unread, harg3.read_unread, harg4.read_unread, harg5.read_unread,
    harg6.read_unread, harg7.read_unread, harg9.read_unread, View.ld_unit_zero (S := S512x1024) hz,
    View.ld_unit_zero (S := S512x1) hz, View.ld_unit_zero (S := S8x128) hz, ld_cell, View.writes_nil,
    read_writes_cons_cell, read_writes_whole_store, readCov_cell_whole_store, readCov_whole_cell_whole]
  rfl

/-- Reset and accumulation: the accumulator ends with its first cell at zero plus the block's masked
sum, and every other cell at zero. -/
theorem scratchA (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : condReset i) (hc1 : condAcc i) (x0 x1 : Vec F S512x1024 .bf16) (x2 x3 : Vec F S512x1 .f32) (x4 x5 : Vec F S512x1 .i32) (f : arg9.view.ty.Contents (Elt F)) :
    arg9.view.read (Elt F) (arg9.view.writes (Elt F) f
        (kernelRunA c i arg2 harg2 arg3 harg3 arg4 harg4 arg5 harg5 arg6 harg6 arg7 harg7 arg8 harg8 arg9 harg9 hc0 hc1 x0 x1 x2 x3 x4 x5).2.1)
      = fun y => if y = ix2 0 0 then
          k0_pay2 (k0_pay3 (BitVec.ofNat 32 (i 0).val) (BitVec.ofNat 32 (i 1).val) x4 x5) (k0_pay4 x0 x1 x2 x3) (fun _ => k0_pay1 (F := F) (ix2 0 0)) (ix2 0 0)
        else k0_pay1 (F := F) y := by
  unfold kernelRunA
  dsimp only
  sl_unfold_words
  simp only [View.readAt_eq_ld, harg2.read_unread, harg3.read_unread, harg4.read_unread, harg5.read_unread,
    harg6.read_unread, harg7.read_unread, harg9.read_unread, View.ld_unit_zero (S := S512x1024) hz,
    View.ld_unit_zero (S := S512x1) hz, View.ld_unit_zero (S := S8x128) hz, ld_cell, View.writes_nil,
    read_writes_cons_cell, read_writes_whole_store, readCov_cell_whole_store, readCov_whole_cell_whole]
  rfl

/-- Neither branch: the output's buffer ends holding the accumulator's contents. -/
theorem outC (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : ¬condAcc i) (x0 x1 : Vec F S512x1024 .bf16) (x2 x3 : Vec F S512x1 .f32) (x4 x5 : Vec F S512x1 .i32) (xs : Vec F S8x128 .f32)
    (v : View sig .tc .vmem S8x128 .f32) (f : v.ty.Contents (Elt F)) :
    v.read (Elt F) (v.writes (Elt F) f
        (kernelRunC c i arg2 harg2 arg3 harg3 arg4 harg4 arg5 harg5 arg6 harg6 arg7 harg7 arg8 harg8 arg9 harg9 hc0 hc1 x0 x1 x2 x3 x4 x5 xs).1) = xs := by
  unfold kernelRunC
  dsimp only
  sl_unfold_words
  simp only [View.readAt_eq_ld, harg2.read_unread, harg3.read_unread, harg4.read_unread, harg5.read_unread,
    harg6.read_unread, harg7.read_unread, harg9.read_unread, View.ld_unit_zero (S := S512x1024) hz,
    View.ld_unit_zero (S := S512x1) hz, View.ld_unit_zero (S := S8x128) hz, ld_cell, View.writes_nil,
    read_writes_cons_cell, read_writes_whole_store, readCov_cell_whole_store, readCov_whole_cell_whole]

/-- Accumulation without reset: the output's buffer ends holding what the accumulator ends holding. -/
theorem outB (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : ¬condReset i) (hc1 : condAcc i) (x0 x1 : Vec F S512x1024 .bf16) (x2 x3 : Vec F S512x1 .f32) (x4 x5 : Vec F S512x1 .i32) (xs : Vec F S8x128 .f32)
    (v : View sig .tc .vmem S8x128 .f32) (f : v.ty.Contents (Elt F)) :
    v.read (Elt F) (v.writes (Elt F) f
        (kernelRunB c i arg2 harg2 arg3 harg3 arg4 harg4 arg5 harg5 arg6 harg6 arg7 harg7 arg8 harg8 arg9 harg9 hc0 hc1 x0 x1 x2 x3 x4 x5 xs).1)
      = fun y => if y = ix2 0 0 then
          k0_pay2 (k0_pay3 (BitVec.ofNat 32 (i 0).val) (BitVec.ofNat 32 (i 1).val) x4 x5) (k0_pay4 x0 x1 x2 x3) (fun _ => xs (ix2 0 0)) (ix2 0 0)
        else xs y := by
  unfold kernelRunB
  dsimp only
  sl_unfold_words
  simp only [View.readAt_eq_ld, harg2.read_unread, harg3.read_unread, harg4.read_unread, harg5.read_unread,
    harg6.read_unread, harg7.read_unread, harg9.read_unread, View.ld_unit_zero (S := S512x1024) hz,
    View.ld_unit_zero (S := S512x1) hz, View.ld_unit_zero (S := S8x128) hz, ld_cell, View.writes_nil,
    read_writes_cons_cell, read_writes_whole_store, readCov_cell_whole_store, readCov_whole_cell_whole]
  rfl

/-- Reset and accumulation: the output's buffer ends holding what the accumulator ends holding. -/
theorem outA (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .i32) (harg6 : arg6.IsWhole) (arg7 : Memref sig .tc .vmem S512x1 .i32) (harg7 : arg7.IsWhole)
    (arg8 : Memref sig .tc .vmem S8x128 .f32) (harg8 : arg8.IsWhole) (arg9 : Memref sig .tc .vmem S8x128 .f32) (harg9 : arg9.IsWhole)
    (hc0 : condReset i) (hc1 : condAcc i) (x0 x1 : Vec F S512x1024 .bf16) (x2 x3 : Vec F S512x1 .f32) (x4 x5 : Vec F S512x1 .i32) (v : View sig .tc .vmem S8x128 .f32) (f : v.ty.Contents (Elt F)) :
    v.read (Elt F) (v.writes (Elt F) f
        (kernelRunA c i arg2 harg2 arg3 harg3 arg4 harg4 arg5 harg5 arg6 harg6 arg7 harg7 arg8 harg8 arg9 harg9 hc0 hc1 x0 x1 x2 x3 x4 x5).1)
      = fun y => if y = ix2 0 0 then
          k0_pay2 (k0_pay3 (BitVec.ofNat 32 (i 0).val) (BitVec.ofNat 32 (i 1).val) x4 x5) (k0_pay4 x0 x1 x2 x3) (fun _ => k0_pay1 (F := F) (ix2 0 0)) (ix2 0 0)
        else k0_pay1 (F := F) y := by
  unfold kernelRunA
  dsimp only
  sl_unfold_words
  simp only [View.readAt_eq_ld, harg2.read_unread, harg3.read_unread, harg4.read_unread, harg5.read_unread,
    harg6.read_unread, harg7.read_unread, harg9.read_unread, View.ld_unit_zero (S := S512x1024) hz,
    View.ld_unit_zero (S := S512x1) hz, View.ld_unit_zero (S := S8x128) hz, ld_cell, View.writes_nil,
    read_writes_cons_cell, read_writes_whole_store, readCov_cell_whole_store, readCov_whole_cell_whole]
  rfl

/-! ## The same, at a grid point's own buffers and blocks -/

variable (m : (ℓ : Loc nD τ sig) → Buf (Elt F) ℓ)

/-- After the first point the accumulator holds zero plus the block's masked sum in its first cell, and
zero in every other cell. -/
theorem soutA_eq (c : Dev nD) (t : Fin cfg0.N) (h0 : t.val = 0) (h1 : t.val / 16 ≤ t.val % 16) :
    soutA m c t h0 h1 = fun y => if y = ix2 0 0 then
        k0_pay2 (k0_pay3 (BitVec.ofNat 32 ((grid0.coords t) 0).val) (BitVec.ofNat 32 ((grid0.coords t) 1).val) (iblk m c 4 t) (iblk m c 5 t)) (k0_pay4 (iblk m c 0 t) (iblk m c 1 t) (iblk m c 2 t) (iblk m c 3 t)) (fun _ => k0_pay1 (F := F) (ix2 0 0)) (ix2 0 0)
      else k0_pay1 (F := F) y := by
  unfold soutA
  exact scratchA (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcondReset t).mpr h0) ((hcondAcc t).mpr h1) (iblk m c 0 t) (iblk m c 1 t) (iblk m c 2 t) (iblk m c 3 t) (iblk m c 4 t) (iblk m c 5 t) VS.junk

/-- After the first point the output's buffer holds what the accumulator holds. -/
theorem outA_eq (c : Dev nD) (t : Fin cfg0.N) (h0 : t.val = 0) (h1 : t.val / 16 ≤ t.val % 16) :
    Hand.outA m c t h0 h1 = fun y => if y = ix2 0 0 then
        k0_pay2 (k0_pay3 (BitVec.ofNat 32 ((grid0.coords t) 0).val) (BitVec.ofNat 32 ((grid0.coords t) 1).val) (iblk m c 4 t) (iblk m c 5 t)) (k0_pay4 (iblk m c 0 t) (iblk m c 1 t) (iblk m c 2 t) (iblk m c 3 t)) (fun _ => k0_pay1 (F := F) (ix2 0 0)) (ix2 0 0)
      else k0_pay1 (F := F) y := by
  unfold Hand.outA
  exact outA (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcondReset t).mpr h0) ((hcondAcc t).mpr h1) (iblk m c 0 t) (iblk m c 1 t) (iblk m c 2 t) (iblk m c 3 t) (iblk m c 4 t) (iblk m c 5 t) VO VO.junk

/-- After a later point whose block is accumulated, the accumulator holds the old first cell plus the
block's masked sum in its first cell, and every other cell as it was. -/
theorem soutB_eq (c : Dev nD) (t : Fin cfg0.N) (h0 : t.val ≠ 0) (h1 : t.val / 16 ≤ t.val % 16) (xs : Vec F S8x128 .f32) :
    soutB m c t h0 h1 xs = fun y => if y = ix2 0 0 then
        k0_pay2 (k0_pay3 (BitVec.ofNat 32 ((grid0.coords t) 0).val) (BitVec.ofNat 32 ((grid0.coords t) 1).val) (iblk m c 4 t) (iblk m c 5 t)) (k0_pay4 (iblk m c 0 t) (iblk m c 1 t) (iblk m c 2 t) (iblk m c 3 t)) (fun _ => xs (ix2 0 0)) (ix2 0 0)
      else xs y := by
  unfold soutB
  exact scratchB (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) ((hcondAcc t).mpr h1) (iblk m c 0 t) (iblk m c 1 t) (iblk m c 2 t) (iblk m c 3 t) (iblk m c 4 t) (iblk m c 5 t) xs

/-- After such a point the output's buffer holds what the accumulator holds. -/
theorem outB_eq (c : Dev nD) (t : Fin cfg0.N) (h0 : t.val ≠ 0) (h1 : t.val / 16 ≤ t.val % 16) (xs : Vec F S8x128 .f32) :
    Hand.outB m c t h0 h1 xs = fun y => if y = ix2 0 0 then
        k0_pay2 (k0_pay3 (BitVec.ofNat 32 ((grid0.coords t) 0).val) (BitVec.ofNat 32 ((grid0.coords t) 1).val) (iblk m c 4 t) (iblk m c 5 t)) (k0_pay4 (iblk m c 0 t) (iblk m c 1 t) (iblk m c 2 t) (iblk m c 3 t)) (fun _ => xs (ix2 0 0)) (ix2 0 0)
      else xs y := by
  unfold Hand.outB
  exact outB (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) ((hcondAcc t).mpr h1) (iblk m c 0 t) (iblk m c 1 t) (iblk m c 2 t) (iblk m c 3 t) (iblk m c 4 t) (iblk m c 5 t) xs VO VO.junk

/-- After a point whose block is skipped the output's buffer holds the accumulator's contents. -/
theorem outC_eq (c : Dev nD) (t : Fin cfg0.N) (h0 : t.val ≠ 0) (h1 : ¬t.val / 16 ≤ t.val % 16) (xs : Vec F S8x128 .f32) :
    Hand.outC m c t h0 h1 xs = xs := by
  unfold Hand.outC
  exact outC (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondReset t).mp h)) (fun h => h1 ((hcondAcc t).mp h)) (iblk m c 0 t) (iblk m c 1 t) (iblk m c 2 t) (iblk m c 3 t) (iblk m c 4 t) (iblk m c 5 t) xs VO VO.junk

end Cert.KernelIdeal.PieceValue
-- ==== Proof.KI.AccValue.lean ====
/-
  The induction over the 256 grid points: after point n the accumulator holds, in its first
  cell, the block sums of the specification's masked pair matrix over the blocks of the first
  n + 1 points whose block-row is at most their block-column, and zero elsewhere; the output's
  staging buffer holds the same. After the last point the first cell is the whole double sum.
-/
import proofs.«179921_j88399016886706_1_alg».proof.Proof.KI.Data
import proofs.«179921_j88399016886706_1_alg».proof.Proof.KI.EntryValue
import proofs.«179921_j88399016886706_1_alg».proof.Proof.KI.OutValue
import proofs.«179921_j88399016886706_1_alg».proof.Proof.KI.PayValue
import proofs.«179921_j88399016886706_1_alg».proof.Proof.KI.PieceValue
import proofs.«179921_j88399016886706_1_alg».proof.Proof.LibUpperBlocks
import proofs.«179921_j88399016886706_1_alg».proof.Proof.Spec

set_option maxRecDepth 16384

noncomputable section

namespace Cert.KernelIdeal.AccValue

open Cert.KernelIdeal Cert.KernelIdeal.Gen Cert.KernelIdeal.Hand
open Idealize.ShloMosaic Idealize.ShloMosaic.TcCoe
open Idealize.SL.Sem
open Idealize.ShloMosaic.ValueIdx (ix0 ix1 ix2)

variable (m : (ℓ : Loc nD τ sig) → Buf (Elt Ideal) ℓ)

/-- The specification's masked pair matrix of the two arguments, with the norms the host
    computed. -/
abbrev f (c : Dev nD) : Fin 8192 → Fin 8192 → EReal :=
  Cert.Spec.term (m ((c.tc : Thread nD τ).loc main_arg0))
    (fun r => Cert.Spec.normArr reducesTo_S8192x1024_S8192_d1 h_S_ bcast_S8192_S8192x1_0
      (m ((c.tc : Thread nD τ).loc main_arg0)) (ix2 r 0))
    (m ((c.tc : Thread nD τ).loc main_arg1))

/-- The zero array of the reset is zero at every index. -/
theorem pay1_apply (y : S8x128.Idx) : Gen.k0_pay1 (F := Ideal) y = 0 := by
  unfold Gen.k0_pay1
  rw [shapeCast_self]
  exact Ideal.ofBits_zero_f32

/-- One grid point: the body's new first cell is the old one plus the block sum of the masked
    pair matrix over block (t / 16, t % 16). -/
theorem step (c : Dev nD) (t : Fin cfg0.N) (v57 : Vec Ideal S1x1 .f32) :
    Gen.k0_pay2 (F := Ideal)
        (Gen.k0_pay3 (F := Ideal) (BitVec.ofNat 32 ((grid0.coords t) 0).val) (BitVec.ofNat 32 ((grid0.coords t) 1).val)
          (iblk m c 4 t) (iblk m c 5 t))
        (Gen.k0_pay4 (F := Ideal) (iblk m c 0 t) (iblk m c 1 t) (iblk m c 2 t) (iblk m c 3 t)) v57 (ix2 0 0)
      = v57 (ix2 0 0) + Cert.Blocks.blockSum (f m c)
          ⟨t.val / 16, by have := EntryValue.t_lt t; omega⟩ ⟨t.val % 16, by omega⟩ := by
  rw [(coords_eq t).1, (coords_eq t).2]
  exact PayValue.pay_block ⟨t.val / 16, by have := EntryValue.t_lt t; omega⟩ ⟨t.val % 16, by omega⟩
    (iblk m c 0 t) (iblk m c 1 t) (iblk m c 2 t) (iblk m c 3 t) (iblk m c 4 t) (iblk m c 5 t) v57
    (m ((c.tc : Thread nD τ).loc main_arg0)) _ (m ((c.tc : Thread nD τ).loc main_arg1))
    (fun p k => EntryValue.blk0 m c t p k) (fun q k => EntryValue.blk1 m c t q k)
    (fun p => EntryValue.blk2 m c t p) (fun q => EntryValue.blk3 m c t q)
    (fun p => EntryValue.blk4 m c t p) (fun q => EntryValue.blk5 m c t q)

section Induction

variable (c : Dev nD)

/-- The accumulator after k points: the accumulated block sums in the first cell, zero elsewhere. -/
def accArr (k : ℕ) (hk : k ≤ 256) : Vec Ideal S8x128 .f32 :=
  fun y => if y = ix2 0 0 then Cert.Blocks.accum (f m c) k hk else 0

/-- What holds after point n: the accumulator is the accumulated block sums of the first n + 1
    points, and the output's staging buffer holds the same. -/
def Inv (n : ℕ) (hn : n < cfg0.N) : Prop :=
  (outsAt m c n hn).2 = accArr m c (n + 1) (Nat.succ_le_of_lt (lt_of_lt_of_eq hn N_0))
    ∧ (outsAt m c n hn).1 = (outsAt m c n hn).2

/-- The first point resets the accumulator and adds block (0, 0). -/
theorem inv_zero (hn : 0 < cfg0.N) : Inv m c 0 hn := by
  have hd : (0 : ℕ) / 16 ≤ 0 % 16 := by decide
  have e : outsAt m c 0 hn = (outA m c ⟨0, hn⟩ rfl hd, soutA m c ⟨0, hn⟩ rfl hd) := rfl
  have e1 : (outsAt m c 0 hn).1 = outA m c ⟨0, hn⟩ rfl hd := congrArg Prod.fst e
  have e2 : (outsAt m c 0 hn).2 = soutA m c ⟨0, hn⟩ rfl hd := congrArg Prod.snd e
  have hs := PieceValue.soutA_eq m c ⟨0, hn⟩ rfl hd
  have ho := PieceValue.outA_eq m c ⟨0, hn⟩ rfl hd
  refine ⟨(e2.trans hs).trans ?_, (e1.trans ho).trans (e2.trans hs).symm⟩
  funext y
  unfold accArr
  by_cases hy : y = ix2 0 0
  · subst hy
    simp only [↓reduceIte]
    rw [step, pay1_apply, Cert.Blocks.accum_succ, if_pos (by decide), Cert.Blocks.accum_zero]
  · simp only [if_neg hy]
    exact pay1_apply y

/-- A later point whose block-row is at most its block-column adds its block. -/
theorem inv_succ_acc (n : ℕ) (hn : n + 1 < cfg0.N) (h1 : (n + 1) / 16 ≤ (n + 1) % 16)
    (ih : Inv m c n (Nat.lt_of_succ_lt hn)) : Inv m c (n + 1) hn := by
  obtain ⟨ih2, -⟩ := ih
  have e : outsAt m c (n + 1) hn
      = (outB m c ⟨n + 1, hn⟩ (Nat.succ_ne_zero n) h1 (outsAt m c n (Nat.lt_of_succ_lt hn)).2,
         soutB m c ⟨n + 1, hn⟩ (Nat.succ_ne_zero n) h1 (outsAt m c n (Nat.lt_of_succ_lt hn)).2) :=
    dif_pos h1
  have e1 := congrArg Prod.fst e
  have e2 := congrArg Prod.snd e
  dsimp only at e1 e2
  have hs := PieceValue.soutB_eq m c ⟨n + 1, hn⟩ (Nat.succ_ne_zero n) h1 (outsAt m c n (Nat.lt_of_succ_lt hn)).2
  have ho := PieceValue.outB_eq m c ⟨n + 1, hn⟩ (Nat.succ_ne_zero n) h1 (outsAt m c n (Nat.lt_of_succ_lt hn)).2
  refine ⟨(e2.trans hs).trans ?_, (e1.trans ho).trans (e2.trans hs).symm⟩
  rw [ih2]
  funext y
  unfold accArr
  by_cases hy : y = ix2 0 0
  · subst hy
    simp only [↓reduceIte]
    rw [step, Cert.Blocks.accum_succ (f m c) (n + 1), if_pos h1]
  · simp only [if_neg hy]

/-- A later point whose block lies below the block diagonal leaves the accumulator. -/
theorem inv_succ_skip (n : ℕ) (hn : n + 1 < cfg0.N) (h1 : ¬ (n + 1) / 16 ≤ (n + 1) % 16)
    (ih : Inv m c n (Nat.lt_of_succ_lt hn)) : Inv m c (n + 1) hn := by
  obtain ⟨ih2, -⟩ := ih
  have e : outsAt m c (n + 1) hn
      = (outC m c ⟨n + 1, hn⟩ (Nat.succ_ne_zero n) h1 (outsAt m c n (Nat.lt_of_succ_lt hn)).2,
         (outsAt m c n (Nat.lt_of_succ_lt hn)).2) :=
    dif_neg h1
  have e1 := congrArg Prod.fst e
  have e2 := congrArg Prod.snd e
  dsimp only at e1 e2
  have ho := PieceValue.outC_eq m c ⟨n + 1, hn⟩ (Nat.succ_ne_zero n) h1 (outsAt m c n (Nat.lt_of_succ_lt hn)).2
  refine ⟨(e2.trans ih2).trans ?_, (e1.trans ho).trans e2.symm⟩
  funext y
  unfold accArr
  rw [Cert.Blocks.accum_succ (f m c) (n + 1), if_neg h1]

/-- The invariant holds after every point. -/
theorem inv : ∀ (n : ℕ) (hn : n < cfg0.N), Inv m c n hn
  | 0, hn => inv_zero m c hn
  | n + 1, hn =>
    if h1 : (n + 1) / 16 ≤ (n + 1) % 16 then inv_succ_acc m c n hn h1 (inv n (Nat.lt_of_succ_lt hn))
    else inv_succ_skip m c n hn h1 (inv n (Nat.lt_of_succ_lt hn))

end Induction

/-- After the last point the first cell of the output's staging buffer is the specification's
    total: the accumulated block sums of all 256 points are the whole double sum, the masked
    pair matrix vanishing off the strict upper triangle. -/
theorem acc_last (c : Dev nD) :
    (outsAt m c 255 OutValue.last_lt).1 (ix2 0 0)
      = Cert.Spec.total (m ((c.tc : Thread nD τ).loc main_arg0))
          (fun r => Cert.Spec.normArr reducesTo_S8192x1024_S8192_d1 h_S_ bcast_S8192_S8192x1_0
            (m ((c.tc : Thread nD τ).loc main_arg0)) (ix2 r 0))
          (m ((c.tc : Thread nD τ).loc main_arg1)) := by
  obtain ⟨h2, h1⟩ := inv m c 255 OutValue.last_lt
  rw [h1, h2]
  unfold accArr Cert.Spec.total
  simp only [↓reduceIte]
  exact Cert.Blocks.accum_eq_total (f m c) fun r c' h => Cert.Spec.term_eq_zero _ _ _ r c' h

end Cert.KernelIdeal.AccValue

end
-- ==== Proof.KI.Value.lean ====
/-
  The idealized kernel's run with its result named: the scalar it returns is the whole double sum of the masked
  pair values. The output array after the last grid point is what the body left in its buffer there (the block is
  the whole array, written back once, at the last point); its entry (0,0) is the accumulator after all 256 points;
  the accumulator is the block sums added in grid order, blocks below the block diagonal skipped; and because a
  pair value vanishes off the strict upper triangle, that is the sum over all pairs.
-/
import proofs.«179921_j88399016886706_1_alg».proof.Proof.KI.Frame
import proofs.«179921_j88399016886706_1_alg».proof.Proof.KI.OutValue
import proofs.«179921_j88399016886706_1_alg».proof.Proof.KI.AccValue
import proofs.«179921_j88399016886706_1_alg».proof.Proof.LibUpperBlocks
import proofs.«179921_j88399016886706_1_alg».proof.Proof.Spec

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The row norms of the array `x`, as both programs compute them on the host. -/
abbrev nrm (x : FVec Ideal Cert.Spec.SX .f32) : Fin 8192 → EReal :=
  fun r => Cert.Spec.normArr reducesTo_S8192x1024_S8192_d1 h_S_ bcast_S8192_S8192x1_0 x (ix2 r 0)

/-- The scalar the kernel's program returns is the sum over all pairs. -/
theorem result_eq (c : Dev nD) :
    Wfin m c ((dats m 0 c).arrAt 6 cfg0.N) (Proc.devRef .tc main_v5)
      = fun _ => Cert.Spec.total (m ((c.tc : Thread nD τ).loc main_arg0)) (nrm (m ((c.tc : Thread nD τ).loc main_arg0))) (m ((c.tc : Thread nD τ).loc main_arg1)) := by
  refine (Cert.KernelIdeal.OutValue.tail_value m c _).trans ?_
  funext _
  show ((dats m 0 c).arrAt 6 cfg0.N : S8x128.Idx → Elt Ideal .f32) (ix2 0 0) = _
  rw [Cert.KernelIdeal.OutValue.arr_last m c]
  exact Cert.KernelIdeal.AccValue.acc_last m c

/-- The idealized kernel's run, its result at the specification's total, its arguments unchanged. -/
theorem run :
    θ_run (defs (F := Ideal)) (onTc (τ := τ) (main (F := Ideal))) ⟨m, fun _ => 0, ρ⟩ (fun r => ∀ c : Dev nD,
      r.2.mem ((c.tc : Thread nD τ).loc main_v5)
          = (fun _ => Cert.Spec.total (m ((c.tc : Thread nD τ).loc main_arg0)) (nrm (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (Cert.KernelIdeal.Hand.run_main (F := Ideal) m ρ)

end Cert.KernelIdeal.Value

end
-- ==== Proof.RefValue.lean ====
/-
  The reference's result is the specification's total: its 44 host operations, read at an
  index, are the masked pair matrix of the specification entry by entry, and the sum over both
  axes is the double sum.
-/
import proofs.«179921_j88399016886706_1_alg».proof.Proof.Gen.ReferenceIdeal.Read
import proofs.«179921_j88399016886706_1_alg».proof.Proof.Spec

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix0 ix1 ix2)

/-- The reference's norm column, as a function of the row. -/
abbrev nrm (x0 : (⟨S8192x1024, .f32⟩ : BufTy).Contents (Elt Ideal)) : Fin 8192 → EReal :=
  fun r => Cert.Spec.normArr reducesTo_S8192x1024_S8192_d1 h_S_ bcast_S8192_S8192x1_0 x0 (ix2 r 0)

/-- The reference's norm operations are the specification's norm array. -/
theorem norm_eq (x0 : (⟨S8192x1024, .f32⟩ : BufTy).Contents (Elt Ideal)) :
    val_main_v0 (F := Ideal) x0
      = Cert.Spec.normArr reducesTo_S8192x1024_S8192_d1 h_S_ bcast_S8192_S8192x1_0 x0 := rfl

/-- Entry (r, c) of the reference's masked pair matrix is the specification's term. -/
theorem entry (x0 : (⟨S8192x1024, .f32⟩ : BufTy).Contents (Elt Ideal))
    (x1 : (⟨S8192, .i32⟩ : BufTy).Contents (Elt Ideal)) (r c : Fin 8192) :
    val_main_v28 (F := Ideal) x0 x1 (ix2 r c) = Cert.Spec.term x0 (nrm x0) x1 r c := by
  have e10 : idx_main_v8 (idx_main_v10 (ix2 r c)) = ix1 r :=
    funext fun a => match a with | ⟨0, _⟩ => rfl
  have e11 : idx_main_v9 (idx_main_v11 (ix2 r c)) = ix1 c :=
    funext fun a => match a with | ⟨0, _⟩ => rfl
  have e4 : idx_main_v4 (ix2 r c) = ix2 r 0 :=
    funext fun a => match a with | ⟨0, _⟩ => rfl | ⟨1, _⟩ => rfl
  have e5 : idx_main_v3 (idx_main_v5 (ix2 r c)) = ix2 c 0 :=
    funext fun a => match a with | ⟨0, _⟩ => rfl | ⟨1, _⟩ => rfl
  have el : ∀ k : Fin 1024, lidx_main_v2 (ix2 r c) k = ix2 r k := fun k =>
    funext fun a => match a with | ⟨0, _⟩ => rfl | ⟨1, _⟩ => rfl
  have er : ∀ k : Fin 1024, idx_main_v1 (ridx_main_v2 (ix2 r c) k) = ix2 c k := fun k =>
    funext fun a => match a with | ⟨0, _⟩ => rfl | ⟨1, _⟩ => rfl
  rw [val_main_v28_apply, val_main_v20_apply, val_main_v12_apply, val_main_v19_apply,
    val_main_v10_apply, val_main_v11_apply, val_main_v8_apply, val_main_v9_apply,
    val_main_v17_apply, val_main_v18_apply, val_main_v14_apply, val_main_v16_apply,
    val_main_v13_apply, val_main_v15_apply,
    val_main_v27_apply, val_main_v22_apply, val_main_v25_apply, val_main_v26_apply,
    val_main_v24_apply, val_main_v7_apply, val_main_v21_apply, val_main_v23_apply,
    val_main_cst_apply, val_main_cst_0_apply, val_main_call1_v0_apply, val_main_call1_cst_apply,
    val_main_call2_v0_apply, val_main_call2_cst_apply, val_main_call4_v1_apply,
    val_main_call4_v0_apply, val_main_cst_1_apply,
    val_main_v6_apply, val_main_v4_apply, val_main_v5_apply, val_main_v3_apply,
    val_main_v2_apply, e10, e11, e4, e5]
  have hs : (∑ k : Fin 1024, x0 (lidx_main_v2 (ix2 r c) k) * val_main_v1 (F := Ideal) x0 (ridx_main_v2 (ix2 r c) k))
      = ∑ k : Fin 1024, x0 (ix2 r k) * x0 (ix2 c k) :=
    Finset.sum_congr rfl fun k _ => by rw [val_main_v1_apply, el k, er k]
  rw [hs, norm_eq]
  rfl

/-- The reference's result is the specification's total. -/
theorem result_eq (x0 : (⟨S8192x1024, .f32⟩ : BufTy).Contents (Elt Ideal))
    (x1 : (⟨S8192, .i32⟩ : BufTy).Contents (Elt Ideal)) :
    val_main_v29 (F := Ideal) x0 x1 = fun _ => Cert.Spec.total x0 (nrm x0) x1 := by
  funext i
  rw [val_main_v29_apply, val_main_cst_2_apply, Ideal.ofBits_def, Ideal.ofBits_zero_f32, zero_add,
    ValueIdx.sum_idx2]
  exact Finset.sum_congr rfl fun r _ => Finset.sum_congr rfl fun c _ => entry x0 x1 r c

/-- On every device, from any memory with zero counters, every weakly fair execution of the
    reference terminates with its result the specification's total of the arguments, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
          = (fun _ => Cert.Spec.total (m ((c.tc : Thread nD τ).loc main_arg0))
              (nrm (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨by rw [(h c).1, val_main_v29_eq, result_eq]; rfl, (h c).2⟩)
    (Cert.ReferenceIdeal.Value.run (F := Ideal) m ρ)

end Cert.RefValue

end
-- ==== Proof.lean ====
/-
  The certificate's claim. Both programs, read at the extended reals, return the sum over all pairs r < c of rows
  with equal cluster word of the hinge of the cosine similarity s = (x_r . x_c) / (|x_r| |x_c|): max(1 - s, 0) where
  s > 1/2, max(s, 0) elsewhere. The reference forms the whole 8192 x 8192 pair matrix and sums it. The kernel walks
  a 16 x 16 grid of 512 x 512 blocks, skips the blocks below the block diagonal (every pair there has r > c, so its
  masked value is the literal zero), and adds each remaining block's sum to an accumulator; regrouping a finite sum
  of extended reals needs no finiteness, so the two results are equal for every input. The kernel's frames are
  proved for the word-level program and the idealized one alike: several input windows of the pipelined call read
  one array, each holding half of its points-to. The idealization rewrote nothing, so there is nothing to preserve.
-/
import proofs.«179921_j88399016886706_1_alg».proof.Defs
import proofs.«179921_j88399016886706_1_alg».proof.Proof.Gen.Kernel
import proofs.«179921_j88399016886706_1_alg».proof.Proof.Gen.KernelIdeal
import proofs.«179921_j88399016886706_1_alg».proof.Proof.Gen.ReferenceIdeal
import proofs.«179921_j88399016886706_1_alg».proof.Proof.Gen.Pre_finite_inputs
import proofs.«179921_j88399016886706_1_alg».proof.Proof.KB.Frame
import proofs.«179921_j88399016886706_1_alg».proof.Proof.KI.Value
import proofs.«179921_j88399016886706_1_alg».proof.Proof.RefValue
import Idealize.ShloMosaic.Adequacy
import Idealize.ShloMosaic.Init

noncomputable section

namespace Cert.Proof

open Idealize.ShloMosaic Idealize.SL.Sem

/-- The word-level kernel runs to its end and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefValue.run m ρ)

/-- Both idealized programs end at the sum over all pairs of the same arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Value.run m ρ, ?_⟩
  refine (θ_run Cert.ReferenceIdeal.defs _ _).mono (fun _ h c => ⟨(h c).1.trans ?_, (h c).2⟩) (Cert.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
